-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S100000 : Shape := ⟨1, ![100000]⟩
abbrev S512x7 : Shape := ⟨2, ![512, 7]⟩
abbrev S7 : Shape := ⟨1, ![7]⟩
abbrev S7x7 : Shape := ⟨2, ![7, 7]⟩
abbrev S7x10 : Shape := ⟨2, ![7, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_
  bcast_S_S7x10 : S_.BroadcastsInDim S7x10 (![] : Fin 0 → Fin S7x10.rank)
  reducesTo_S7x10_S_d0_1 : S7x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S7 .f32) (main_arg7 : FVec F S7x10 .f32) (main_arg8 : FVec F S10 .f32) (main_v13 : IVec S_ 1) (main_v16 : IVec S7x7 1) : IVec S_ 1 :=
  let main_c_5 : IVec S_ 1 := constantI S_ 1 1#1
  let main_v17 : IVec S_ 1 := (fun x v => Host.reduce IntOp.andi x v reducesTo_S7x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  let main_v24 : FVec F S7x10 .f32 := Host.absf main_arg7
  let main_cst_8 : FVec F S_ .f32 := constant S_ .f32 0x7F800000#32
  let main_v25 : FVec F S7x10 .f32 := broadcastInDim S7x10 ![] bcast_S_S7x10 main_cst_8
  let main_v26 : IVec S7x10 1 := cmpf .olt main_v24 main_v25
  let main_c_9 : IVec S_ 1 := constantI S_ 1 1#1
  let main_v27 : IVec S_ 1 := (fun x v => Host.reduce IntOp.andi x v reducesTo_S7x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : IVec S100000 32) (main_arg3 : FVec F S512x7 .f32) (main_arg4 : FVec F S7 .f32) (main_arg5 : FVec F S7x7 .f32) (main_arg6 : FVec F S7 .f32) (main_arg7 : FVec F S7x10 .f32) (main_arg8 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x7 .f32 := Host.absf main_arg3
  let main_cst_0 : FVec F S_ .f32 := constant S_ .f32 0x7F800000#32
  let main_v5 : FVec F S512x7 .f32 := broadcastInDim S512x7 ![] bcast_S_S512x7 main_cst_0
  let main_v6 : IVec S512x7 1 := cmpf .olt main_v4 main_v5
  let main_c_1 : IVec S_ 1 := constantI S_ 1 1#1
  let main_v7 : IVec S_ 1 := (fun x v => Host.reduce IntOp.andi x v reducesTo_S512x7_S_d0_1 h_S_) main_v6 main_c_1
  let main_v8 : IVec S_ 1 := andi main_v3 main_v7
  let main_v9 : FVec F S7 .f32 := Host.absf main_arg4
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S7x7 .f32 := Host.absf main_arg5
  let main_cst_4 : FVec F S_ .f32 := constant S_ .f32 0x7F800000#32
  let main_v15 : FVec F S7x7 .f32 := broadcastInDim S7x7 ![] bcast_S_S7x7 main_cst_4
  let main_v16 : IVec S7x7 1 := cmpf .olt main_v14 main_v15
  fn_part1 (F := F) main_arg6 main_arg7 main_arg8 main_v13 main_v16
-- ==== Kernel.lean ====
abbrev S100000x512 : Shape := ⟨2, ![100000, 512]⟩
abbrev S2x3200000 : Shape := ⟨2, ![2, 3200000]⟩
abbrev S100000 : Shape := ⟨1, ![100000]⟩
abbrev S512x7 : Shape := ⟨2, ![512, 7]⟩
abbrev S7 : Shape := ⟨1, ![7]⟩
abbrev S7x7 : Shape := ⟨2, ![7, 7]⟩
abbrev S7x10 : Shape := ⟨2, ![7, 10]⟩
abbrev S10 : Shape := ⟨1, ![10]⟩
abbrev S1x3200000 : Shape := ⟨2, ![1, 3200000]⟩
abbrev S3200000 : Shape := ⟨1, ![3200000]⟩
abbrev S100000x7 : Shape := ⟨2, ![100000, 7]⟩
abbrev S5000x512 : Shape := ⟨2, ![5000, 512]⟩
abbrev S5000x7 : Shape := ⟨2, ![5000, 7]⟩
abbrev S3300000 : Shape := ⟨1, ![3300000]⟩
abbrev S_ : Shape := ⟨0, ![]⟩
abbrev S3300000x1 : Shape := ⟨2, ![3300000, 1]⟩
abbrev S3300000x7 : Shape := ⟨2, ![3300000, 7]⟩
abbrev S1x7 : Shape := ⟨2, ![1, 7]⟩
abbrev S1000x7 : Shape := ⟨2, ![1000, 7]⟩
abbrev S100000x1 : Shape := ⟨2, ![100000, 1]⟩
abbrev S1000 : Shape := ⟨1, ![1000]⟩
abbrev S1000x1 : Shape := ⟨2, ![1000, 1]⟩
abbrev S1000x10 : Shape := ⟨2, ![1000, 10]⟩
abbrev S1x10 : Shape := ⟨2, ![1, 10]⟩

abbrev nBuf : Space → Nat
  | .hbm => 106
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S100000, .i32⟩
  | .hbm, ⟨3, _⟩ => ⟨S512x7, .f32⟩
  | .hbm, ⟨4, _⟩ => ⟨S7, .f32⟩
  | .hbm, ⟨5, _⟩ => ⟨S7x7, .f32⟩
  | .hbm, ⟨6, _⟩ => ⟨S7, .f32⟩
  | .hbm, ⟨7, _⟩ => ⟨S7x10, .f32⟩
  | .hbm, ⟨8, _⟩ => ⟨S10, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x7, .f32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x7, .f32⟩
  | .hbm, ⟨59, _⟩ => ⟨S3300000x1, .f32⟩
  | .hbm, ⟨60, _⟩ => ⟨S3300000x7, .f32⟩
  | .hbm, ⟨61, _⟩ => ⟨S3300000x7, .f32⟩
  | .hbm, ⟨62, _⟩ => ⟨S_, .f32⟩
  | .hbm, ⟨63, _⟩ => ⟨S100000x7, .f32⟩
  | .hbm, ⟨64, _⟩ => ⟨S3300000x1, .i32⟩
  | .hbm, ⟨65, _⟩ => ⟨S100000x7, .f32⟩
  | .hbm, ⟨66, _⟩ => ⟨S1x7, .f32⟩
  | .hbm, ⟨67, _⟩ => ⟨S100000x7, .f32⟩
  | .hbm, ⟨68, _⟩ => ⟨S100000x7, .f32⟩
  | .hbm, ⟨69, _⟩ => ⟨S_, .f32⟩
  | .hbm, ⟨70, _⟩ => ⟨S100000x7, .f32⟩
  | .hbm, ⟨71, _⟩ => ⟨S100000x7, .f32⟩
  | .hbm, ⟨72, _⟩ => ⟨S_, .f32⟩
  | .hbm, ⟨73, _⟩ => ⟨S1000x7, .f32⟩
  | .hbm, ⟨74, _⟩ => ⟨S100000x1, .i32⟩
  | .hbm, ⟨75, _⟩ => ⟨S1000x7, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S1000, .f32⟩
  | .hbm, ⟨80, _⟩ => ⟨S100000x1, .i32⟩
  | .hbm, ⟨81, _⟩ => ⟨S1000, .f32⟩
  | .hbm, ⟨82, _⟩ => ⟨S_, .f32⟩
  | .hbm, ⟨83, _⟩ => ⟨S1000, .f32⟩
  | .hbm, ⟨84, _⟩ => ⟨S1000, .f32⟩
  | .hbm, ⟨85, _⟩ => ⟨S1000x1, .f32⟩
  | .hbm, ⟨86, _⟩ => ⟨S1000x7, .f32⟩
  | .hbm, ⟨87, _⟩ => ⟨S1000x7, .f32⟩
  | .hbm, ⟨88, _⟩ => ⟨S1000x10, .f32⟩
  | .hbm, ⟨89, _⟩ => ⟨S1x10, .f32⟩
  | .hbm, ⟨90, _⟩ => ⟨S1000x10, .f32⟩
  | .hbm, ⟨91, _⟩ => ⟨S1000x10, .f32⟩
  | .hbm, ⟨92, _⟩ => ⟨S_, .f32⟩
  | .hbm, ⟨93, _⟩ => ⟨S1000, .f32⟩
  | .hbm, ⟨94, _⟩ => ⟨S_, .f32⟩
  | .hbm, ⟨95, _⟩ => ⟨S1000, .f32⟩
  | .hbm, ⟨96, _⟩ => ⟨S1000, .f32⟩
  | .hbm, ⟨97, _⟩ => ⟨S1000x1, .f32⟩
  | .hbm, ⟨98, _⟩ => ⟨S1000x10, .f32⟩
  | .hbm, ⟨99, _⟩ => ⟨S1000x10, .f32⟩
  | .hbm, ⟨100, _⟩ => ⟨S1000x10, .f32⟩
  | .hbm, ⟨101, _⟩ => ⟨S_, .f32⟩
  | .hbm, ⟨102, _⟩ => ⟨S1000, .f32⟩
  | .hbm, ⟨103, _⟩ => ⟨S1000x1, .f32⟩
  | .hbm, ⟨104, _⟩ => ⟨S1000x10, .f32⟩
  | .hbm, ⟨105, _⟩ => ⟨S1000x10, .f32⟩
  | .local _ .vmem, ⟨0, _⟩ => ⟨S5000x512, .f32⟩
  | .local _ .vmem, ⟨1, _⟩ => ⟨S5000x512, .f32⟩
  | .local _ .vmem, ⟨2, _⟩ => ⟨S512x7, .f32⟩
  | .local _ .vmem, ⟨3, _⟩ => ⟨S5000x7, .f32⟩
  | .local _ .vmem, ⟨4, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x7_S512x7_0_0 : ∀ a, (![0, 0] : Fin 2 → Nat) a + S512x7.size a ≤ S512x7.size a
  h_S512x7 : 0 < S512x7.numel
  inb_S5000x7_S5000x7_0_0 : ∀ a, (![0, 0] : Fin 2 → Nat) a + S5000x7.size a ≤ S5000x7.size a
  h_S5000x7 : 0 < S5000x7.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S_S1000x7 : S_.BroadcastsInDim S1000x7 (![] : Fin 0 → Fin S1000x7.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x7_0_1 : S1000x1.BroadcastsInDim S1000x7 (![0, 1] : Fin 2 → Fin S1000x7.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  reducesTo_S1000x10_S1000_d1 : S1000x10.ReducesTo [1] S1000
  h_S_ : 0 < S_.numel
  bcast_S1000x1_S1000x10_0_1 : S1000x1.BroadcastsInDim S1000x10 (![0, 1] : Fin 2 → Fin S1000x10.rank)
  dot_S5000x512_S512x7_S5000x7_1_0_0_1_n_n_wf : DotDims.WF S5000x512 S512x7 S5000x7 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  scatter_S1000x7_S100000x1_S100000x7_1_0_0_1_wf : ScatterDims.WF S1000x7 S100000x1 S100000x7 [1] [0] [0] 1
  scatter_S1000_S100000x1_S100000_n_0_0_1_wf : ScatterDims.WF S1000 S100000x1 S100000 [] [0] [0] 1
  dot_S1000x7_S7x10_S1000x10_1_0_0_1_n_n_wf : DotDims.WF S1000x7 S7x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x7.size a ≤ S512x7.size a
  hwx0_1 : ∀ i : grid0.Coords, EltTy.bits .f32 = 32 ∨ (Rect.block (s := S512x7) S512x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x7.size a ≤ S100000x7.size a
  hwx0_2 : ∀ i : grid0.Coords, EltTy.bits .f32 = 32 ∨ (Rect.block (s := S100000x7) S5000x7.size (cc0_transform_2 i) (hinb0_2 i)).WholeWords (EltTy.packing .f32)

variable [Facts₀]

def dot_S5000x512_S512x7_S5000x7_1_0_0_1_n_n : DotDims S5000x512 S512x7 S5000x7 where
  lhsContracting := [1]
  rhsContracting := [0]
  lhsNonContracting := [0]
  rhsNonContracting := [1]
  lhsBatch := []
  rhsBatch := []
  wf := dot_S5000x512_S512x7_S5000x7_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf
def scatter_S1000x7_S100000x1_S100000x7_1_0_0_1 : ScatterDims S1000x7 S100000x1 S100000x7 where
  updateWindowDims := [1]
  insertedWindowDims := [0]
  scatterDimsToOperandDims := [0]
  indexVectorDim := 1
  wf := scatter_S1000x7_S100000x1_S100000x7_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x7_S7x10_S1000x10_1_0_0_1_n_n : DotDims S1000x7 S7x10 S1000x10 where
  lhsContracting := [1]
  rhsContracting := [0]
  lhsNonContracting := [0]
  rhsNonContracting := [1]
  lhsBatch := []
  rhsBatch := []
  wf := dot_S1000x7_S7x10_S1000x10_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x7.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S100000 : Shape := ⟨1, ![100000]⟩
abbrev S512x7 : Shape := ⟨2, ![512, 7]⟩
abbrev S7 : Shape := ⟨1, ![7]⟩
abbrev S7x7 : Shape := ⟨2, ![7, 7]⟩
abbrev S7x10 : Shape := ⟨2, ![7, 10]⟩
abbrev S10 : Shape := ⟨1, ![10]⟩
abbrev S1x3200000 : Shape := ⟨2, ![1, 3200000]⟩
abbrev S3200000 : Shape := ⟨1, ![3200000]⟩
abbrev S100000x7 : Shape := ⟨2, ![100000, 7]⟩
abbrev S3300000 : Shape := ⟨1, ![3300000]⟩
abbrev S_ : Shape := ⟨0, ![]⟩
abbrev S3300000x1 : Shape := ⟨2, ![3300000, 1]⟩
abbrev S3300000x7 : Shape := ⟨2, ![3300000, 7]⟩
abbrev S1x7 : Shape := ⟨2, ![1, 7]⟩
abbrev S1000x7 : Shape := ⟨2, ![1000, 7]⟩
abbrev S100000x1 : Shape := ⟨2, ![100000, 1]⟩
abbrev S1000 : Shape := ⟨1, ![1000]⟩
abbrev S1000x1 : Shape := ⟨2, ![1000, 1]⟩
abbrev S1000x10 : Shape := ⟨2, ![1000, 10]⟩
abbrev S1x10 : Shape := ⟨2, ![1, 10]⟩

abbrev nBuf : Space → Nat
  | .hbm => 165
  | .vmem => 0
  | .smem => 0
  | _ => 0

abbrev hbmTy0_0 (i : Nat) : BufTy := match i % 128 with
  | 0 => ⟨S100000x512, .f32⟩
  | 1 => ⟨S2x3200000, .i32⟩
  | 2 => ⟨S100000, .i32⟩
  | 3 => ⟨S512x7, .f32⟩
  | 4 => ⟨S7, .f32⟩
  | 5 => ⟨S7x7, .f32⟩
  | 6 => ⟨S7, .f32⟩
  | 7 => ⟨S7x10, .f32⟩
  | 8 => ⟨S10, .f32⟩
  | 9 => ⟨S1x3200000, .i32⟩
  | 10 => ⟨S3200000, .i32⟩
  | 11 => ⟨S1x3200000, .i32⟩
  | 12 => ⟨S3200000, .i32⟩
  | 13 => ⟨S100000x7, .f32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x7, .f32⟩
  | 59 => ⟨S3300000x1, .f32⟩
  | 60 => ⟨S3300000x7, .f32⟩
  | 61 => ⟨S3300000x7, .f32⟩
  | 62 => ⟨S_, .f32⟩
  | 63 => ⟨S100000x7, .f32⟩
  | 64 => ⟨S3300000x1, .i32⟩
  | 65 => ⟨S100000x7, .f32⟩
  | 66 => ⟨S1x7, .f32⟩
  | 67 => ⟨S100000x7, .f32⟩
  | 68 => ⟨S100000x7, .f32⟩
  | 69 => ⟨S_, .f32⟩
  | 70 => ⟨S100000x7, .f32⟩
  | 71 => ⟨S100000x7, .f32⟩
  | 72 => ⟨S100000x7, .f32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x7, .f32⟩
  | 118 => ⟨S3300000x1, .f32⟩
  | 119 => ⟨S3300000x7, .f32⟩
  | 120 => ⟨S3300000x7, .f32⟩
  | 121 => ⟨S_, .f32⟩
  | 122 => ⟨S100000x7, .f32⟩
  | 123 => ⟨S3300000x1, .i32⟩
  | 124 => ⟨S100000x7, .f32⟩
  | 125 => ⟨S1x7, .f32⟩
  | 126 => ⟨S100000x7, .f32⟩
  | 127 => ⟨S100000x7, .f32⟩
  | _ => ⟨S100000x512, .f32⟩

abbrev hbmTy0_1 (i : Nat) : BufTy := match i % 128 with
  | 0 => ⟨S_, .f32⟩
  | 1 => ⟨S100000x7, .f32⟩
  | 2 => ⟨S100000x7, .f32⟩
  | 3 => ⟨S_, .f32⟩
  | 4 => ⟨S1000x7, .f32⟩
  | 5 => ⟨S100000x1, .i32⟩
  | 6 => ⟨S1000x7, .f32⟩
  | 7 => ⟨S_, .f32⟩
  | 8 => ⟨S100000, .f32⟩
  | 9 => ⟨S_, .f32⟩
  | 10 => ⟨S1000, .f32⟩
  | 11 => ⟨S100000x1, .i32⟩
  | 12 => ⟨S1000, .f32⟩
  | 13 => ⟨S_, .f32⟩
  | 14 => ⟨S1000, .f32⟩
  | 15 => ⟨S1000, .f32⟩
  | 16 => ⟨S1000x1, .f32⟩
  | 17 => ⟨S1000x7, .f32⟩
  | 18 => ⟨S1000x7, .f32⟩
  | 19 => ⟨S1000x10, .f32⟩
  | 20 => ⟨S1x10, .f32⟩
  | 21 => ⟨S1000x10, .f32⟩
  | 22 => ⟨S1000x10, .f32⟩
  | 23 => ⟨S_, .f32⟩
  | 24 => ⟨S1000, .f32⟩
  | 25 => ⟨S_, .f32⟩
  | 26 => ⟨S1000, .f32⟩
  | 27 => ⟨S1000, .f32⟩
  | 28 => ⟨S1000x1, .f32⟩
  | 29 => ⟨S1000x10, .f32⟩
  | 30 => ⟨S1000x10, .f32⟩
  | 31 => ⟨S1000x10, .f32⟩
  | 32 => ⟨S_, .f32⟩
  | 33 => ⟨S1000, .f32⟩
  | 34 => ⟨S1000x1, .f32⟩
  | 35 => ⟨S1000x10, .f32⟩
  | 36 => ⟨S1000x10, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_24 : Ref sig .tc := ⟨.hbm, 151, rfl⟩
abbrev main_v108 : Ref sig .tc := ⟨.hbm, 152, rfl⟩
abbrev main_cst_25 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_26 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  bcast_S_S1000x7 : S_.BroadcastsInDim S1000x7 (![] : Fin 0 → Fin S1000x7.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x7_0_1 : S1000x1.BroadcastsInDim S1000x7 (![0, 1] : Fin 2 → Fin S1000x7.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  reducesTo_S1000x10_S1000_d1 : S1000x10.ReducesTo [1] S1000
  h_S_ : 0 < S_.numel
  bcast_S1000x1_S1000x10_0_1 : S1000x1.BroadcastsInDim S1000x10 (![0, 1] : Fin 2 → Fin S1000x10.rank)
  dot_S100000x512_S512x7_S100000x7_1_0_0_1_n_n_wf : DotDims.WF S100000x512 S512x7 S100000x7 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  dot_S100000x7_S7x7_S100000x7_1_0_0_1_n_n_wf : DotDims.WF S100000x7 S7x7 S100000x7 [1] [0] [0] [1] [] []
  scatter_S1000x7_S100000x1_S100000x7_1_0_0_1_wf : ScatterDims.WF S1000x7 S100000x1 S100000x7 [1] [0] [0] 1
  scatter_S1000_S100000x1_S100000_n_0_0_1_wf : ScatterDims.WF S1000 S100000x1 S100000 [] [0] [0] 1
  dot_S1000x7_S7x10_S1000x10_1_0_0_1_n_n_wf : DotDims.WF S1000x7 S7x10 S1000x10 [1] [0] [0] [1] [] []

variable [Facts₀]

def dot_S100000x512_S512x7_S100000x7_1_0_0_1_n_n : DotDims S100000x512 S512x7 S100000x7 where
  lhsContracting := [1]
  rhsContracting := [0]
  lhsNonContracting := [0]
  rhsNonContracting := [1]
  lhsBatch := []
  rhsBatch := []
  wf := dot_S100000x512_S512x7_S100000x7_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf
def dot_S100000x7_S7x7_S100000x7_1_0_0_1_n_n : DotDims S100000x7 S7x7 S100000x7 where
  lhsContracting := [1]
  rhsContracting := [0]
  lhsNonContracting := [0]
  rhsNonContracting := [1]
  lhsBatch := []
  rhsBatch := []
  wf := dot_S100000x7_S7x7_S100000x7_1_0_0_1_n_n_wf
def scatter_S1000x7_S100000x1_S100000x7_1_0_0_1 : ScatterDims S1000x7 S100000x1 S100000x7 where
  updateWindowDims := [1]
  insertedWindowDims := [0]
  scatterDimsToOperandDims := [0]
  indexVectorDim := 1
  wf := scatter_S1000x7_S100000x1_S100000x7_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x7_S7x10_S1000x10_1_0_0_1_n_n : DotDims S1000x7 S7x10 S1000x10 where
  lhsContracting := [1]
  rhsContracting := [0]
  lhsNonContracting := [0]
  rhsNonContracting := [1]
  lhsBatch := []
  rhsBatch := []
  wf := dot_S1000x7_S7x10_S1000x10_1_0_0_1_n_n_wf

class Facts : Prop extends Facts₀ where

variable [Facts]
-- ==== Proof.AroundBits.lean ====
/-
  The node-feature projection `h = x · W_in` is the one part of the program computed by a tiled kernel: the
  100000 rows of `x` are cut into 20 blocks of 5000 rows, the 512 × 7 weight matrix is staged once, and grid
  point `t` writes the 5000 × 7 product of row block `t` with the weight into row block `t` of `h`. Around
  that region the program is a straight line of array operations: four before it (the two rows of the edge list
  sliced out and flattened) and ninety-two after it (self loops, degrees, normalisation, gather, scatter-add,
  bias, rectifier, mean pooling per graph, the output layer and the soft-max), none of which writes an argument
  array or the array `h`.

  This module proves, for any float instance, that the program runs to completion without a fault: each grid
  point's body reads its two input blocks, forms the block product, and stores it over the whole output block;
  the blocks are staged and written back by the pipeline; and every buffer the region does not own passes
  through it untouched, so the operations after the region find the arrays as the operations before it left
  them, with `h` holding what the grid points wrote.  The final state is read off as: each window's array at
  the pipeline's account of it, and every other buffer at the value the trailing operations compute.
-/
import proofs.«143454_j77352361001079_1_alg».proof.Proof.Gen.Kernel.Launch
import proofs.«143454_j77352361001079_1_alg».proof.Proof.Gen.Kernel.Skeleton
import proofs.«143454_j77352361001079_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The straight-line operations around the region -/

/-- The ninety-two operations after the region, as the five stretches the program text cuts them into (the two
    short ones are the bodies of the select and the rectifier helpers). -/
abbrev tailOps : List (List (HloOp τ sig (Elt F))) := [hostOps1, hostOps1_1, hostOps1_2, hostOps1_3, hostOps1_4]

/-- What core `c`'s buffers hold when the region is entered: the launch contents after the four slicing and
    flattening operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No operation allocates. -/
theorem head_fresh : (hostOps0 : List (HloOp τ sig (Elt F))).Forall fun op => op.fresh = ∅ := by
  simp only [List.Forall]; repeat' constructor
theorem tail_fresh1 : (hostOps1 : List (HloOp τ sig (Elt F))).Forall fun op => op.fresh = ∅ := by
  simp only [List.Forall]; repeat' constructor
theorem tail_fresh2 : (hostOps1_1 : List (HloOp τ sig (Elt F))).Forall fun op => op.fresh = ∅ := by
  simp only [List.Forall]; repeat' constructor
theorem tail_fresh3 : (hostOps1_2 : List (HloOp τ sig (Elt F))).Forall fun op => op.fresh = ∅ := by
  simp only [List.Forall]; repeat' constructor
theorem tail_fresh4 : (hostOps1_3 : List (HloOp τ sig (Elt F))).Forall fun op => op.fresh = ∅ := by
  simp only [List.Forall]; repeat' constructor
theorem tail_fresh5 : (hostOps1_4 : List (HloOp τ sig (Elt F))).Forall fun op => op.fresh = ∅ := by
  simp only [List.Forall]; repeat' constructor

/-- The program is: the leading operations, the region, the trailing operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact head_fresh) main_chain

/-- Every trailing operation works on unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp tail_fresh1) op hop
  · exact (List.forall_iff_forall_mem.mp tail_fresh2) op hop
  · exact (List.forall_iff_forall_mem.mp tail_fresh3) op hop
  · exact (List.forall_iff_forall_mem.mp tail_fresh4) op hop
  · exact (List.forall_iff_forall_mem.mp tail_fresh5) op hop

/-! ## Which buffers the straight-line operations leave alone

Each operation writes its own result buffer and nothing else, and the result buffers are pairwise distinct from
the nine argument arrays and (for the trailing operations) from the projected features `h`. -/

/-- The trailing operations write buffer `r` nowhere: every one of the ninety-two result buffers is another. -/
local macro "tail_leaves" : tactic => `(tactic| (
  simp only [tailOps, hostOps1, hostOps1_1, hostOps1_2, hostOps1_3, hostOps1_4, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The leading operations write buffer `r` nowhere. -/
local macro "head_leaves" : tactic => `(tactic| (
  simp only [hostOps0, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem tail_leaves_arg0 : (List.flatten (tailOps (F := F))).Forall fun op => Proc.devRef .tc main_arg0 ∉ op.writes := by tail_leaves
theorem tail_leaves_arg1 : (List.flatten (tailOps (F := F))).Forall fun op => Proc.devRef .tc main_arg1 ∉ op.writes := by tail_leaves
theorem tail_leaves_arg2 : (List.flatten (tailOps (F := F))).Forall fun op => Proc.devRef .tc main_arg2 ∉ op.writes := by tail_leaves
theorem tail_leaves_arg3 : (List.flatten (tailOps (F := F))).Forall fun op => Proc.devRef .tc main_arg3 ∉ op.writes := by tail_leaves
theorem tail_leaves_arg4 : (List.flatten (tailOps (F := F))).Forall fun op => Proc.devRef .tc main_arg4 ∉ op.writes := by tail_leaves
theorem tail_leaves_arg5 : (List.flatten (tailOps (F := F))).Forall fun op => Proc.devRef .tc main_arg5 ∉ op.writes := by tail_leaves
theorem tail_leaves_arg6 : (List.flatten (tailOps (F := F))).Forall fun op => Proc.devRef .tc main_arg6 ∉ op.writes := by tail_leaves
theorem tail_leaves_arg7 : (List.flatten (tailOps (F := F))).Forall fun op => Proc.devRef .tc main_arg7 ∉ op.writes := by tail_leaves
theorem tail_leaves_arg8 : (List.flatten (tailOps (F := F))).Forall fun op => Proc.devRef .tc main_arg8 ∉ op.writes := by tail_leaves
theorem tail_leaves_h : (List.flatten (tailOps (F := F))).Forall fun op => Proc.devRef .tc main_v4 ∉ op.writes := by tail_leaves

theorem head_leaves_arg0 : (List.flatten [(hostOps0 : List (HloOp τ sig (Elt F)))]).Forall fun op => Proc.devRef .tc main_arg0 ∉ op.writes := by head_leaves
theorem head_leaves_arg1 : (List.flatten [(hostOps0 : List (HloOp τ sig (Elt F)))]).Forall fun op => Proc.devRef .tc main_arg1 ∉ op.writes := by head_leaves
theorem head_leaves_arg2 : (List.flatten [(hostOps0 : List (HloOp τ sig (Elt F)))]).Forall fun op => Proc.devRef .tc main_arg2 ∉ op.writes := by head_leaves
theorem head_leaves_arg3 : (List.flatten [(hostOps0 : List (HloOp τ sig (Elt F)))]).Forall fun op => Proc.devRef .tc main_arg3 ∉ op.writes := by head_leaves
theorem head_leaves_arg4 : (List.flatten [(hostOps0 : List (HloOp τ sig (Elt F)))]).Forall fun op => Proc.devRef .tc main_arg4 ∉ op.writes := by head_leaves
theorem head_leaves_arg5 : (List.flatten [(hostOps0 : List (HloOp τ sig (Elt F)))]).Forall fun op => Proc.devRef .tc main_arg5 ∉ op.writes := by head_leaves
theorem head_leaves_arg6 : (List.flatten [(hostOps0 : List (HloOp τ sig (Elt F)))]).Forall fun op => Proc.devRef .tc main_arg6 ∉ op.writes := by head_leaves
theorem head_leaves_arg7 : (List.flatten [(hostOps0 : List (HloOp τ sig (Elt F)))]).Forall fun op => Proc.devRef .tc main_arg7 ∉ op.writes := by head_leaves
theorem head_leaves_arg8 : (List.flatten [(hostOps0 : List (HloOp τ sig (Elt F)))]).Forall fun op => Proc.devRef .tc main_arg8 ∉ op.writes := by head_leaves

/-- No trailing operation writes an array the region's windows move: those are `x`, `W_in` and `h`. -/
theorem tail_keeps : ∀ ops ∈ (tailOps : List (List (HloOp τ sig (Elt F)))), ∀ op ∈ ops,
    ∀ w, Proc.devRef .tc (Pipeline.arrRef spec0 w) ∉ op.writes := by
  intro ops hops op hop w
  have hmem : op ∈ List.flatten (tailOps (F := F)) := List.mem_flatten.mpr ⟨ops, hops, hop⟩
  fin_cases w
  · exact (List.forall_iff_forall_mem.mp tail_leaves_arg0) op hmem
  · exact (List.forall_iff_forall_mem.mp tail_leaves_arg3) op hmem
  · exact (List.forall_iff_forall_mem.mp tail_leaves_h) op hmem

/-- The region finds each argument array as launched. -/
theorem V_arg0 (c : Dev nD) : V m c main_arg0 = m ((c : Thread nD τ).loc main_arg0) :=
  StableHlo.after_of_forall_not_mem (b := Proc.devRef .tc main_arg0) _ _ (List.forall_iff_forall_mem.mp head_leaves_arg0)
theorem V_arg1 (c : Dev nD) : V m c main_arg1 = m ((c : Thread nD τ).loc main_arg1) :=
  StableHlo.after_of_forall_not_mem (b := Proc.devRef .tc main_arg1) _ _ (List.forall_iff_forall_mem.mp head_leaves_arg1)
theorem V_arg2 (c : Dev nD) : V m c main_arg2 = m ((c : Thread nD τ).loc main_arg2) :=
  StableHlo.after_of_forall_not_mem (b := Proc.devRef .tc main_arg2) _ _ (List.forall_iff_forall_mem.mp head_leaves_arg2)
theorem V_arg3 (c : Dev nD) : V m c main_arg3 = m ((c : Thread nD τ).loc main_arg3) :=
  StableHlo.after_of_forall_not_mem (b := Proc.devRef .tc main_arg3) _ _ (List.forall_iff_forall_mem.mp head_leaves_arg3)
theorem V_arg4 (c : Dev nD) : V m c main_arg4 = m ((c : Thread nD τ).loc main_arg4) :=
  StableHlo.after_of_forall_not_mem (b := Proc.devRef .tc main_arg4) _ _ (List.forall_iff_forall_mem.mp head_leaves_arg4)
theorem V_arg5 (c : Dev nD) : V m c main_arg5 = m ((c : Thread nD τ).loc main_arg5) :=
  StableHlo.after_of_forall_not_mem (b := Proc.devRef .tc main_arg5) _ _ (List.forall_iff_forall_mem.mp head_leaves_arg5)
theorem V_arg6 (c : Dev nD) : V m c main_arg6 = m ((c : Thread nD τ).loc main_arg6) :=
  StableHlo.after_of_forall_not_mem (b := Proc.devRef .tc main_arg6) _ _ (List.forall_iff_forall_mem.mp head_leaves_arg6)
theorem V_arg7 (c : Dev nD) : V m c main_arg7 = m ((c : Thread nD τ).loc main_arg7) :=
  StableHlo.after_of_forall_not_mem (b := Proc.devRef .tc main_arg7) _ _ (List.forall_iff_forall_mem.mp head_leaves_arg7)
theorem V_arg8 (c : Dev nD) : V m c main_arg8 = m ((c : Thread nD τ).loc main_arg8) :=
  StableHlo.after_of_forall_not_mem (b := Proc.devRef .tc main_arg8) _ _ (List.forall_iff_forall_mem.mp head_leaves_arg8)

section AfterTail
variable (dats : (p : Fin 1) → (c : Dev nD) → Dat τ (Elt F) Unit ℕ (UR sig nD τ) ℕ (cfgs p) c)

/-- An argument array no window moves ends as launched: the trailing operations do not write it, the region passes
    it through, the leading operations do not write it. -/
theorem end_arg1 (c : Dev nD) : Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp tail_leaves_arg1),
    Pipeline.withArrays_of_ne _ c (V0 m c) _ main_arg1 (by exact (by decide : ∀ w, Pipeline.arrRef spec0 w ≠ main_arg1))]
  exact V_arg1 m c
theorem end_arg2 (c : Dev nD) : Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp tail_leaves_arg2),
    Pipeline.withArrays_of_ne _ c (V0 m c) _ main_arg2 (by exact (by decide : ∀ w, Pipeline.arrRef spec0 w ≠ main_arg2))]
  exact V_arg2 m c
theorem end_arg4 (c : Dev nD) : Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp tail_leaves_arg4),
    Pipeline.withArrays_of_ne _ c (V0 m c) _ main_arg4 (by exact (by decide : ∀ w, Pipeline.arrRef spec0 w ≠ main_arg4))]
  exact V_arg4 m c
theorem end_arg5 (c : Dev nD) : Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp tail_leaves_arg5),
    Pipeline.withArrays_of_ne _ c (V0 m c) _ main_arg5 (by exact (by decide : ∀ w, Pipeline.arrRef spec0 w ≠ main_arg5))]
  exact V_arg5 m c
theorem end_arg6 (c : Dev nD) : Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp tail_leaves_arg6),
    Pipeline.withArrays_of_ne _ c (V0 m c) _ main_arg6 (by exact (by decide : ∀ w, Pipeline.arrRef spec0 w ≠ main_arg6))]
  exact V_arg6 m c
theorem end_arg7 (c : Dev nD) : Pipeline.afterTail₀ cfgs dats 0 (V0 m) tailOps c main_arg7 = m ((c : Thread nD τ).loc main_arg7) := by
  unfold Pipeline.afterTail₀
  rw [StableHlo.after_of_forall_not_mem (b := Proc.devRef .tc main_arg7) _ _ (List.forall_iff_forall_mem.mp tail_leaves_arg7),
    Pipeline.withArrays_of_ne _ c (V0 m c) _ main_arg7 (by exact (by decide : ∀ w, Pipeline.arrRef spec0 w ≠ main_arg7))]
  exact V_arg7 m c
theorem end_arg8 (c : Dev nD) : Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp tail_leaves_arg8),
    Pipeline.withArrays_of_ne _ c (V0 m c) _ main_arg8 (by exact (by decide : ∀ w, Pipeline.arrRef spec0 w ≠ main_arg8))]
  exact V_arg8 m c

end AfterTail

/-! ## The windows' blocks -/

/-- Window `w`'s block at grid point `t`, read off the array the region finds: for `x` rows `5000 t … 5000 t + 4999`,
    for `W_in` the whole matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block of `x` is fetched at every point, so the body finds it in the current staging buffer. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight matrix is fetched at the first point only; its block index never moves and the body leaves it in
    place, so every later point still finds it. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body at one grid point -/

abbrev rowsRect : Rect S5000x512 := Rect.unit (s := S5000x512) ![0, 0] S5000x512.size inb_S5000x512_S5000x512_0_0
abbrev weightRect : Rect S512x7 := Rect.unit (s := S512x7) ![0, 0] S512x7.size inb_S512x7_S512x7_0_0
abbrev prodRect : Rect S5000x7 := Rect.unit (s := S5000x7) ![0, 0] S5000x7.size inb_S5000x7_S5000x7_0_0

/-- What the body leaves in the output block: the one store, over the whole block, of the product of the loaded row
    block with the loaded weight matrix. -/
def blockProduct (xb : Vec F S5000x512 .f32) (wb : Vec F S512x7 .f32) : Vec F S5000x7 .f32 :=
  View.canon [⟨prodRect, k0_pay1 (View.ld xb rowsRect) (View.ld wb weightRect)⟩]

/-- The store's rectangle is the whole block. -/
theorem prod_covers (p0 : Vec F S5000x7 .f32) (y : S5000x7.Idx) :
    ∃ pc ∈ ([⟨prodRect, p0⟩] : List (View.Piece (Elt F) S5000x7 .f32)), y ∈ pc.1.set :=
  View.cover_of_tiled [⟨prodRect, p0⟩] S5000x7.size (by rfl) y

set_option maxHeartbeats 1000000 in
/-- The body, given the two input staging buffers at contents `xb`, `wb` and the output staging buffer at anything,
    returns the inputs as they were and the output at `blockProduct xb wb`: two loads, a load of the output block
    whose value is not used, and one store over the whole output block. -/
theorem sound_kernel (c : Dev nD) (E : Set ℕ) (i : grid0.Coords) (arg1 : Memref sig .tc .vmem S5000x512 .f32) (harg1 : arg1.IsWhole)
    (arg2 : Memref sig .tc .vmem S512x7 .f32) (harg2 : arg2.IsWhole) (arg3 : Memref sig .tc .vmem S5000x7 .f32) (harg3 : arg3.IsWhole)
    (xb : Vec F S5000x512 .f32) (wb : Vec F S512x7 .f32) (K : PUnit → sProp 𝕄) :
    iprop(owns (c : Thread nD τ) arg1 fullShare xb ∗ owns (c : Thread nD τ) arg2 fullShare wb ∗ (∃ d, owns (c : Thread nD τ) arg3 fullShare d)
        ∗ (iprop(owns (c : Thread nD τ) arg1 fullShare xb ∗ owns (c : Thread nD τ) arg2 fullShare wb ∗ owns (c : Thread nD τ) arg3 fullShare (blockProduct xb wb)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_covers _)

/-! ## The pipeline's account of the region -/

/-- On core `c`: the arrays as the region finds them; after the body at point `t` each input buffer still at its block
    and the output buffer at the block product; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockProduct (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_h (c : Dev nD) (t : Fin cfg0.N) : (dats m 0 c).after 2 t = blockProduct (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_h]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates without a fault; at the end each window's array holds the pipeline's
    account of it and every other unscoped buffer what the trailing operations compute from the region's exit
    contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The nine argument arrays end as launched. -/
theorem args_kept (r : PUnit × MemSt nD τ sig (Elt F))
    (h : Pipeline.FramePost cfgs (dats m) 0 (Pipeline.afterTail₀ cfgs (dats m) 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_arg0 m c))),
    ((h c).2 main_arg1 (Pipeline.mem_restRefs_of main_arg1 (by decide) (by decide))).trans (end_arg1 m (dats m) c),
    ((h c).2 main_arg2 (Pipeline.mem_restRefs_of main_arg2 (by decide) (by decide))).trans (end_arg2 m (dats m) c),
    ((h c).1 1).trans (((dats m 0 c).arrAt_in 1 rfl _).trans ((A_eq m c 1).trans (V_arg3 m c))),
    ((h c).2 main_arg4 (Pipeline.mem_restRefs_of main_arg4 (by decide) (by decide))).trans (end_arg4 m (dats m) c),
    ((h c).2 main_arg5 (Pipeline.mem_restRefs_of main_arg5 (by decide) (by decide))).trans (end_arg5 m (dats m) c),
    ((h c).2 main_arg6 (Pipeline.mem_restRefs_of main_arg6 (by decide) (by decide))).trans (end_arg6 m (dats m) c),
    ((h c).2 main_arg7 (Pipeline.mem_restRefs_of main_arg7 (by decide) (by decide))).trans (end_arg7 m (dats m) c),
    ((h c).2 main_arg8 (Pipeline.mem_restRefs_of main_arg8 (by decide) (by decide))).trans (end_arg8 m (dats m) c)⟩

/-- The program terminates, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run_main m ρ)

end Cert.Kernel.Around

end
-- ==== Proof.AroundIdeal.lean ====
/-
  The node-feature projection `h = x · W_in` is the one part of the program computed by a tiled kernel: the
  100000 rows of `x` are cut into 20 blocks of 5000 rows, the 512 × 7 weight matrix is staged once, and grid
  point `t` writes the 5000 × 7 product of row block `t` with the weight into row block `t` of `h`. Around
  that region the program is a straight line of array operations: four before it (the two rows of the edge list
  sliced out and flattened) and ninety-two after it (self loops, degrees, normalisation, gather, scatter-add,
  bias, rectifier, mean pooling per graph, the output layer and the soft-max), none of which writes an argument
  array or the array `h`.

  This module proves, for any float instance, that the program runs to completion without a fault: each grid
  point's body reads its two input blocks, forms the block product, and stores it over the whole output block;
  the blocks are staged and written back by the pipeline; and every buffer the region does not own passes
  through it untouched, so the operations after the region find the arrays as the operations before it left
  them, with `h` holding what the grid points wrote.  The final state is read off as: each window's array at
  the pipeline's account of it, and every other buffer at the value the trailing operations compute.
-/
import proofs.«143454_j77352361001079_1_alg».proof.Proof.Gen.KernelIdeal.Launch
import proofs.«143454_j77352361001079_1_alg».proof.Proof.Gen.KernelIdeal.Skeleton
import proofs.«143454_j77352361001079_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The straight-line operations around the region -/

/-- The ninety-two operations after the region, as the five stretches the program text cuts them into (the two
    short ones are the bodies of the select and the rectifier helpers). -/
abbrev tailOps : List (List (HloOp τ sig (Elt F))) := [hostOps1, hostOps1_1, hostOps1_2, hostOps1_3, hostOps1_4]

/-- What core `c`'s buffers hold when the region is entered: the launch contents after the four slicing and
    flattening operations. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No operation allocates. -/
theorem head_fresh : (hostOps0 : List (HloOp τ sig (Elt F))).Forall fun op => op.fresh = ∅ := by
  simp only [List.Forall]; repeat' constructor
theorem tail_fresh1 : (hostOps1 : List (HloOp τ sig (Elt F))).Forall fun op => op.fresh = ∅ := by
  simp only [List.Forall]; repeat' constructor
theorem tail_fresh2 : (hostOps1_1 : List (HloOp τ sig (Elt F))).Forall fun op => op.fresh = ∅ := by
  simp only [List.Forall]; repeat' constructor
theorem tail_fresh3 : (hostOps1_2 : List (HloOp τ sig (Elt F))).Forall fun op => op.fresh = ∅ := by
  simp only [List.Forall]; repeat' constructor
theorem tail_fresh4 : (hostOps1_3 : List (HloOp τ sig (Elt F))).Forall fun op => op.fresh = ∅ := by
  simp only [List.Forall]; repeat' constructor
theorem tail_fresh5 : (hostOps1_4 : List (HloOp τ sig (Elt F))).Forall fun op => op.fresh = ∅ := by
  simp only [List.Forall]; repeat' constructor

/-- The program is: the leading operations, the region, the trailing operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact head_fresh) main_chain

/-- Every trailing operation works on unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp tail_fresh1) op hop
  · exact (List.forall_iff_forall_mem.mp tail_fresh2) op hop
  · exact (List.forall_iff_forall_mem.mp tail_fresh3) op hop
  · exact (List.forall_iff_forall_mem.mp tail_fresh4) op hop
  · exact (List.forall_iff_forall_mem.mp tail_fresh5) op hop

/-! ## Which buffers the straight-line operations leave alone

Each operation writes its own result buffer and nothing else, and the result buffers are pairwise distinct from
the nine argument arrays and (for the trailing operations) from the projected features `h`. -/

/-- The trailing operations write buffer `r` nowhere: every one of the ninety-two result buffers is another. -/
local macro "tail_leaves" : tactic => `(tactic| (
  simp only [tailOps, hostOps1, hostOps1_1, hostOps1_2, hostOps1_3, hostOps1_4, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The leading operations write buffer `r` nowhere. -/
local macro "head_leaves" : tactic => `(tactic| (
  simp only [hostOps0, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem tail_leaves_arg0 : (List.flatten (tailOps (F := F))).Forall fun op => Proc.devRef .tc main_arg0 ∉ op.writes := by tail_leaves
theorem tail_leaves_arg1 : (List.flatten (tailOps (F := F))).Forall fun op => Proc.devRef .tc main_arg1 ∉ op.writes := by tail_leaves
theorem tail_leaves_arg2 : (List.flatten (tailOps (F := F))).Forall fun op => Proc.devRef .tc main_arg2 ∉ op.writes := by tail_leaves
theorem tail_leaves_arg3 : (List.flatten (tailOps (F := F))).Forall fun op => Proc.devRef .tc main_arg3 ∉ op.writes := by tail_leaves
theorem tail_leaves_arg4 : (List.flatten (tailOps (F := F))).Forall fun op => Proc.devRef .tc main_arg4 ∉ op.writes := by tail_leaves
theorem tail_leaves_arg5 : (List.flatten (tailOps (F := F))).Forall fun op => Proc.devRef .tc main_arg5 ∉ op.writes := by tail_leaves
theorem tail_leaves_arg6 : (List.flatten (tailOps (F := F))).Forall fun op => Proc.devRef .tc main_arg6 ∉ op.writes := by tail_leaves
theorem tail_leaves_arg7 : (List.flatten (tailOps (F := F))).Forall fun op => Proc.devRef .tc main_arg7 ∉ op.writes := by tail_leaves
theorem tail_leaves_arg8 : (List.flatten (tailOps (F := F))).Forall fun op => Proc.devRef .tc main_arg8 ∉ op.writes := by tail_leaves
theorem tail_leaves_h : (List.flatten (tailOps (F := F))).Forall fun op => Proc.devRef .tc main_v4 ∉ op.writes := by tail_leaves

theorem head_leaves_arg0 : (List.flatten [(hostOps0 : List (HloOp τ sig (Elt F)))]).Forall fun op => Proc.devRef .tc main_arg0 ∉ op.writes := by head_leaves
theorem head_leaves_arg1 : (List.flatten [(hostOps0 : List (HloOp τ sig (Elt F)))]).Forall fun op => Proc.devRef .tc main_arg1 ∉ op.writes := by head_leaves
theorem head_leaves_arg2 : (List.flatten [(hostOps0 : List (HloOp τ sig (Elt F)))]).Forall fun op => Proc.devRef .tc main_arg2 ∉ op.writes := by head_leaves
theorem head_leaves_arg3 : (List.flatten [(hostOps0 : List (HloOp τ sig (Elt F)))]).Forall fun op => Proc.devRef .tc main_arg3 ∉ op.writes := by head_leaves
theorem head_leaves_arg4 : (List.flatten [(hostOps0 : List (HloOp τ sig (Elt F)))]).Forall fun op => Proc.devRef .tc main_arg4 ∉ op.writes := by head_leaves
theorem head_leaves_arg5 : (List.flatten [(hostOps0 : List (HloOp τ sig (Elt F)))]).Forall fun op => Proc.devRef .tc main_arg5 ∉ op.writes := by head_leaves
theorem head_leaves_arg6 : (List.flatten [(hostOps0 : List (HloOp τ sig (Elt F)))]).Forall fun op => Proc.devRef .tc main_arg6 ∉ op.writes := by head_leaves
theorem head_leaves_arg7 : (List.flatten [(hostOps0 : List (HloOp τ sig (Elt F)))]).Forall fun op => Proc.devRef .tc main_arg7 ∉ op.writes := by head_leaves
theorem head_leaves_arg8 : (List.flatten [(hostOps0 : List (HloOp τ sig (Elt F)))]).Forall fun op => Proc.devRef .tc main_arg8 ∉ op.writes := by head_leaves

/-- No trailing operation writes an array the region's windows move: those are `x`, `W_in` and `h`. -/
theorem tail_keeps : ∀ ops ∈ (tailOps : List (List (HloOp τ sig (Elt F)))), ∀ op ∈ ops,
    ∀ w, Proc.devRef .tc (Pipeline.arrRef spec0 w) ∉ op.writes := by
  intro ops hops op hop w
  have hmem : op ∈ List.flatten (tailOps (F := F)) := List.mem_flatten.mpr ⟨ops, hops, hop⟩
  fin_cases w
  · exact (List.forall_iff_forall_mem.mp tail_leaves_arg0) op hmem
  · exact (List.forall_iff_forall_mem.mp tail_leaves_arg3) op hmem
  · exact (List.forall_iff_forall_mem.mp tail_leaves_h) op hmem

/-- The region finds each argument array as launched. -/
theorem V_arg0 (c : Dev nD) : V m c main_arg0 = m ((c : Thread nD τ).loc main_arg0) :=
  StableHlo.after_of_forall_not_mem (b := Proc.devRef .tc main_arg0) _ _ (List.forall_iff_forall_mem.mp head_leaves_arg0)
theorem V_arg1 (c : Dev nD) : V m c main_arg1 = m ((c : Thread nD τ).loc main_arg1) :=
  StableHlo.after_of_forall_not_mem (b := Proc.devRef .tc main_arg1) _ _ (List.forall_iff_forall_mem.mp head_leaves_arg1)
theorem V_arg2 (c : Dev nD) : V m c main_arg2 = m ((c : Thread nD τ).loc main_arg2) :=
  StableHlo.after_of_forall_not_mem (b := Proc.devRef .tc main_arg2) _ _ (List.forall_iff_forall_mem.mp head_leaves_arg2)
theorem V_arg3 (c : Dev nD) : V m c main_arg3 = m ((c : Thread nD τ).loc main_arg3) :=
  StableHlo.after_of_forall_not_mem (b := Proc.devRef .tc main_arg3) _ _ (List.forall_iff_forall_mem.mp head_leaves_arg3)
theorem V_arg4 (c : Dev nD) : V m c main_arg4 = m ((c : Thread nD τ).loc main_arg4) :=
  StableHlo.after_of_forall_not_mem (b := Proc.devRef .tc main_arg4) _ _ (List.forall_iff_forall_mem.mp head_leaves_arg4)
theorem V_arg5 (c : Dev nD) : V m c main_arg5 = m ((c : Thread nD τ).loc main_arg5) :=
  StableHlo.after_of_forall_not_mem (b := Proc.devRef .tc main_arg5) _ _ (List.forall_iff_forall_mem.mp head_leaves_arg5)
theorem V_arg6 (c : Dev nD) : V m c main_arg6 = m ((c : Thread nD τ).loc main_arg6) :=
  StableHlo.after_of_forall_not_mem (b := Proc.devRef .tc main_arg6) _ _ (List.forall_iff_forall_mem.mp head_leaves_arg6)
theorem V_arg7 (c : Dev nD) : V m c main_arg7 = m ((c : Thread nD τ).loc main_arg7) :=
  StableHlo.after_of_forall_not_mem (b := Proc.devRef .tc main_arg7) _ _ (List.forall_iff_forall_mem.mp head_leaves_arg7)
theorem V_arg8 (c : Dev nD) : V m c main_arg8 = m ((c : Thread nD τ).loc main_arg8) :=
  StableHlo.after_of_forall_not_mem (b := Proc.devRef .tc main_arg8) _ _ (List.forall_iff_forall_mem.mp head_leaves_arg8)

section AfterTail
variable (dats : (p : Fin 1) → (c : Dev nD) → Dat τ (Elt F) Unit ℕ (UR sig nD τ) ℕ (cfgs p) c)

/-- An argument array no window moves ends as launched: the trailing operations do not write it, the region passes
    it through, the leading operations do not write it. -/
theorem end_arg1 (c : Dev nD) : Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp tail_leaves_arg1),
    Pipeline.withArrays_of_ne _ c (V0 m c) _ main_arg1 (by exact (by decide : ∀ w, Pipeline.arrRef spec0 w ≠ main_arg1))]
  exact V_arg1 m c
theorem end_arg2 (c : Dev nD) : Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp tail_leaves_arg2),
    Pipeline.withArrays_of_ne _ c (V0 m c) _ main_arg2 (by exact (by decide : ∀ w, Pipeline.arrRef spec0 w ≠ main_arg2))]
  exact V_arg2 m c
theorem end_arg4 (c : Dev nD) : Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp tail_leaves_arg4),
    Pipeline.withArrays_of_ne _ c (V0 m c) _ main_arg4 (by exact (by decide : ∀ w, Pipeline.arrRef spec0 w ≠ main_arg4))]
  exact V_arg4 m c
theorem end_arg5 (c : Dev nD) : Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp tail_leaves_arg5),
    Pipeline.withArrays_of_ne _ c (V0 m c) _ main_arg5 (by exact (by decide : ∀ w, Pipeline.arrRef spec0 w ≠ main_arg5))]
  exact V_arg5 m c
theorem end_arg6 (c : Dev nD) : Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp tail_leaves_arg6),
    Pipeline.withArrays_of_ne _ c (V0 m c) _ main_arg6 (by exact (by decide : ∀ w, Pipeline.arrRef spec0 w ≠ main_arg6))]
  exact V_arg6 m c
theorem end_arg7 (c : Dev nD) : Pipeline.afterTail₀ cfgs dats 0 (V0 m) tailOps c main_arg7 = m ((c : Thread nD τ).loc main_arg7) := by
  unfold Pipeline.afterTail₀
  rw [StableHlo.after_of_forall_not_mem (b := Proc.devRef .tc main_arg7) _ _ (List.forall_iff_forall_mem.mp tail_leaves_arg7),
    Pipeline.withArrays_of_ne _ c (V0 m c) _ main_arg7 (by exact (by decide : ∀ w, Pipeline.arrRef spec0 w ≠ main_arg7))]
  exact V_arg7 m c
theorem end_arg8 (c : Dev nD) : Pipeline.afterTail₀ cfgs dats 0 (V0 m) tailOps c main_arg8 = m ((c : Thread nD τ).loc main_arg8) := by
  unfold Pipeline.afterTail₀
  rw [StableHlo.after_of_forall_not_mem (b := Proc.devRef .tc main_arg8) _ _ (List.forall_iff_forall_mem.mp tail_leaves_arg8),
    Pipeline.withArrays_of_ne _ c (V0 m c) _ main_arg8 (by exact (by decide : ∀ w, Pipeline.arrRef spec0 w ≠ main_arg8))]
  exact V_arg8 m c

end AfterTail

/-! ## The windows' blocks -/

/-- Window `w`'s block at grid point `t`, read off the array the region finds: for `x` rows `5000 t … 5000 t + 4999`,
    for `W_in` the whole matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block of `x` is fetched at every point, so the body finds it in the current staging buffer. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight matrix is fetched at the first point only; its block index never moves and the body leaves it in
    place, so every later point still finds it. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body at one grid point -/

abbrev rowsRect : Rect S5000x512 := Rect.unit (s := S5000x512) ![0, 0] S5000x512.size inb_S5000x512_S5000x512_0_0
abbrev weightRect : Rect S512x7 := Rect.unit (s := S512x7) ![0, 0] S512x7.size inb_S512x7_S512x7_0_0
abbrev prodRect : Rect S5000x7 := Rect.unit (s := S5000x7) ![0, 0] S5000x7.size inb_S5000x7_S5000x7_0_0

/-- What the body leaves in the output block: the one store, over the whole block, of the product of the loaded row
    block with the loaded weight matrix. -/
def blockProduct (xb : Vec F S5000x512 .f32) (wb : Vec F S512x7 .f32) : Vec F S5000x7 .f32 :=
  View.canon [⟨prodRect, k0_pay1 (View.ld xb rowsRect) (View.ld wb weightRect)⟩]

/-- The store's rectangle is the whole block. -/
theorem prod_covers (p0 : Vec F S5000x7 .f32) (y : S5000x7.Idx) :
    ∃ pc ∈ ([⟨prodRect, p0⟩] : List (View.Piece (Elt F) S5000x7 .f32)), y ∈ pc.1.set :=
  View.cover_of_tiled [⟨prodRect, p0⟩] S5000x7.size (by rfl) y

set_option maxHeartbeats 1000000 in
/-- The body, given the two input staging buffers at contents `xb`, `wb` and the output staging buffer at anything,
    returns the inputs as they were and the output at `blockProduct xb wb`: two loads, a load of the output block
    whose value is not used, and one store over the whole output block. -/
theorem sound_kernel (c : Dev nD) (E : Set ℕ) (i : grid0.Coords) (arg1 : Memref sig .tc .vmem S5000x512 .f32) (harg1 : arg1.IsWhole)
    (arg2 : Memref sig .tc .vmem S512x7 .f32) (harg2 : arg2.IsWhole) (arg3 : Memref sig .tc .vmem S5000x7 .f32) (harg3 : arg3.IsWhole)
    (xb : Vec F S5000x512 .f32) (wb : Vec F S512x7 .f32) (K : PUnit → sProp 𝕄) :
    iprop(owns (c : Thread nD τ) arg1 fullShare xb ∗ owns (c : Thread nD τ) arg2 fullShare wb ∗ (∃ d, owns (c : Thread nD τ) arg3 fullShare d)
        ∗ (iprop(owns (c : Thread nD τ) arg1 fullShare xb ∗ owns (c : Thread nD τ) arg2 fullShare wb ∗ owns (c : Thread nD τ) arg3 fullShare (blockProduct xb wb)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_covers _)

/-! ## The pipeline's account of the region -/

/-- On core `c`: the arrays as the region finds them; after the body at point `t` each input buffer still at its block
    and the output buffer at the block product; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockProduct (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_h (c : Dev nD) (t : Fin cfg0.N) : (dats m 0 c).after 2 t = blockProduct (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_h]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates without a fault; at the end each window's array holds the pipeline's
    account of it and every other unscoped buffer what the trailing operations compute from the region's exit
    contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The nine argument arrays end as launched. -/
theorem args_kept (r : PUnit × MemSt nD τ sig (Elt F))
    (h : Pipeline.FramePost cfgs (dats m) 0 (Pipeline.afterTail₀ cfgs (dats m) 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_arg0 m c))),
    ((h c).2 main_arg1 (Pipeline.mem_restRefs_of main_arg1 (by decide) (by decide))).trans (end_arg1 m (dats m) c),
    ((h c).2 main_arg2 (Pipeline.mem_restRefs_of main_arg2 (by decide) (by decide))).trans (end_arg2 m (dats m) c),
    ((h c).1 1).trans (((dats m 0 c).arrAt_in 1 rfl _).trans ((A_eq m c 1).trans (V_arg3 m c))),
    ((h c).2 main_arg4 (Pipeline.mem_restRefs_of main_arg4 (by decide) (by decide))).trans (end_arg4 m (dats m) c),
    ((h c).2 main_arg5 (Pipeline.mem_restRefs_of main_arg5 (by decide) (by decide))).trans (end_arg5 m (dats m) c),
    ((h c).2 main_arg6 (Pipeline.mem_restRefs_of main_arg6 (by decide) (by decide))).trans (end_arg6 m (dats m) c),
    ((h c).2 main_arg7 (Pipeline.mem_restRefs_of main_arg7 (by decide) (by decide))).trans (end_arg7 m (dats m) c),
    ((h c).2 main_arg8 (Pipeline.mem_restRefs_of main_arg8 (by decide) (by decide))).trans (end_arg8 m (dats m) c)⟩

/-- The program terminates, faults nowhere, and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run_main m ρ)

end Cert.KernelIdeal.Around

end
-- ==== Proof.RefRun.lean ====
/-
  The reference program is a straight line of 156 array operations: the two rows of the edge list sliced out and
  flattened, the projection `x · W_in` as one whole-matrix product, the graph convolution (self loops appended,
  in-degrees by scatter-add, inverse square roots, the two gathers of the normalisation, the gather of projected
  rows, the scatter-add of messages, bias, rectifier), a second convolution whose result nothing reads, the mean
  pooling over graphs, the output layer and the soft-max.  Every operation reads buffers written before it and
  writes one fresh result buffer, so from any launch memory every weakly fair execution terminates without a fault,
  each buffer ends at the fold of the operations over the launch contents, and no argument array is written.
-/
import proofs.«143454_j77352361001079_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first five operations: the two rows of the edge list sliced out and flattened, then the projection `x · W_in`
    as one whole-matrix product. (In all three lists the bodies of the select and rectifier helpers stand where they are called.) -/
abbrev headOps : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg3 main_v4 ((fun l r => Host.dotGeneral dot_S100000x512_S512x7_S100000x7_1_0_0_1_n_n none l r) : (⟨S100000x512, .f32⟩ : BufTy).Contents (Elt F) → (⟨S512x7, .f32⟩ : BufTy).Contents (Elt F) → (⟨S100000x7, .f32⟩ : BufTy).Contents (Elt F)) ]

/-- Everything after the projection: 151 operations, none of which reads `x` or `W_in`. -/
abbrev restOps : List (HloOp τ sig (Elt F)) :=
  [ nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x7 ![0, 1] bcast_S3300000x1_S3300000x7_0_1 : (⟨S3300000x1, .f32⟩ : BufTy).Contents (Elt F) → (⟨S3300000x7, .f32⟩ : BufTy).Contents (Elt F)),
    binary main_v37 main_v39 main_v40 (mulf : (⟨S3300000x7, .f32⟩ : BufTy).Contents (Elt F) → (⟨S3300000x7, .f32⟩ : BufTy).Contents (Elt F) → (⟨S3300000x7, .f32⟩ : BufTy).Contents (Elt F)),
    nullary main_cst_8 (constant S_ .f32 0x00000000#32),
    unary main_cst_8 main_v41 (broadcastInDim S100000x7 ![] bcast_S_S100000x7 : (⟨S_, .f32⟩ : BufTy).Contents (Elt F) → (⟨S100000x7, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg4 main_v44 (broadcastInDim S1x7 ![1] bcast_S7_S1x7_1 : (⟨S7, .f32⟩ : BufTy).Contents (Elt F) → (⟨S1x7, .f32⟩ : BufTy).Contents (Elt F)),
    unary main_v44 main_v45 (broadcastInDim S100000x7 ![0, 1] bcast_S1x7_S100000x7_0_1 : (⟨S1x7, .f32⟩ : BufTy).Contents (Elt F) → (⟨S100000x7, .f32⟩ : BufTy).Contents (Elt F)),
    binary main_v43 main_v45 main_v46 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x7, .f32⟩) main_call1_v0) (broadcastInDim S100000x7 ![] bcast_S_S100000x7),
    TRef.binary (TRef.of (T := ⟨S100000x7, .f32⟩) main_v46) (TRef.of (T := ⟨S100000x7, .f32⟩) main_call1_v0) (TRef.of (T := ⟨S100000x7, .f32⟩) main_v47) maximumf,
    binary main_v47 main_arg5 main_v48 ((fun l r => Host.dotGeneral dot_S100000x7_S7x7_S100000x7_1_0_0_1_n_n none l r) : (⟨S100000x7, .f32⟩ : BufTy).Contents (Elt F) → (⟨S7x7, .f32⟩ : BufTy).Contents (Elt F) → (⟨S100000x7, .f32⟩ : BufTy).Contents (Elt F)),
    nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x7 ![0, 1] bcast_S3300000x1_S3300000x7_0_1 : (⟨S3300000x1, .f32⟩ : BufTy).Contents (Elt F) → (⟨S3300000x7, .f32⟩ : BufTy).Contents (Elt F)),
    binary main_v81 main_v83 main_v84 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v85 (broadcastInDim S100000x7 ![] bcast_S_S100000x7 : (⟨S_, .f32⟩ : BufTy).Contents (Elt F) → (⟨S100000x7, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg6 main_v88 (broadcastInDim S1x7 ![1] bcast_S7_S1x7_1 : (⟨S7, .f32⟩ : BufTy).Contents (Elt F) → (⟨S1x7, .f32⟩ : BufTy).Contents (Elt F)),
    unary main_v88 main_v89 (broadcastInDim S100000x7 ![0, 1] bcast_S1x7_S100000x7_0_1 : (⟨S1x7, .f32⟩ : BufTy).Contents (Elt F) → (⟨S100000x7, .f32⟩ : BufTy).Contents (Elt F)),
    binary main_v87 main_v89 main_v90 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x7, .f32⟩) main_call3_v0) (broadcastInDim S100000x7 ![] bcast_S_S100000x7),
    TRef.binary (TRef.of (T := ⟨S100000x7, .f32⟩) main_v90) (TRef.of (T := ⟨S100000x7, .f32⟩) main_call3_v0) (TRef.of (T := ⟨S100000x7, .f32⟩) main_v91) maximumf,
    nullary main_cst_20 (constant S_ .f32 0x00000000#32),
    unary main_cst_20 main_v92 (broadcastInDim S1000x7 ![] bcast_S_S1000x7 : (⟨S_, .f32⟩ : BufTy).Contents (Elt F) → (⟨S1000x7, .f32⟩ : BufTy).Contents (Elt F)),
    unary main_arg2 main_v93 (broadcastInDim S100000x1 ![0] bcast_S100000_S100000x1_0 : (⟨S100000, .i32⟩ : BufTy).Contents (Elt F) → (⟨S100000x1, .i32⟩ : BufTy).Contents (Elt F)),
    ternary main_v92 main_v93 main_v47 main_v94 ((fun x i u => Host.scatterAdd scatter_S1000x7_S100000x1_S100000x7_1_0_0_1 x i u) : (⟨S1000x7, .f32⟩ : BufTy).Contents (Elt F) → (⟨S100000x1, .i32⟩ : BufTy).Contents (Elt F) → (⟨S100000x7, .f32⟩ : BufTy).Contents (Elt F) → (⟨S1000x7, .f32⟩ : BufTy).Contents (Elt F)),
    nullary main_cst_21 (constant S_ .f32 0x3F800000#32),
    unary main_cst_21 main_v95 (broadcastInDim S100000 ![] bcast_S_S100000 : (⟨S_, .f32⟩ : BufTy).Contents (Elt F) → (⟨S100000, .f32⟩ : BufTy).Contents (Elt F)),
    nullary main_cst_22 (constant S_ .f32 0x00000000#32),
    unary main_cst_22 main_v96 (broadcastInDim S1000 ![] bcast_S_S1000 : (⟨S_, .f32⟩ : BufTy).Contents (Elt F) → (⟨S1000, .f32⟩ : BufTy).Contents (Elt F)),
    unary main_arg2 main_v97 (broadcastInDim S100000x1 ![0] bcast_S100000_S100000x1_0 : (⟨S100000, .i32⟩ : BufTy).Contents (Elt F) → (⟨S100000x1, .i32⟩ : BufTy).Contents (Elt F)),
    ternary main_v96 main_v97 main_v95 main_v98 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    nullary main_cst_23 (constant S_ .f32 0x3F800000#32),
    unary main_cst_23 main_v99 (broadcastInDim S1000 ![] bcast_S_S1000 : (⟨S_, .f32⟩ : BufTy).Contents (Elt F) → (⟨S1000, .f32⟩ : BufTy).Contents (Elt F)),
    binary main_v98 main_v99 main_v100 (maximumf : (⟨S1000, .f32⟩ : BufTy).Contents (Elt F) → (⟨S1000, .f32⟩ : BufTy).Contents (Elt F) → (⟨S1000, .f32⟩ : BufTy).Contents (Elt F)),
    unary main_v100 main_v101 (broadcastInDim S1000x1 ![0] bcast_S1000_S1000x1_0 : (⟨S1000, .f32⟩ : BufTy).Contents (Elt F) → (⟨S1000x1, .f32⟩ : BufTy).Contents (Elt F)),
    unary main_v101 main_v102 (broadcastInDim S1000x7 ![0, 1] bcast_S1000x1_S1000x7_0_1 : (⟨S1000x1, .f32⟩ : BufTy).Contents (Elt F) → (⟨S1000x7, .f32⟩ : BufTy).Contents (Elt F)),
    binary main_v94 main_v102 main_v103 (Host.divf : (⟨S1000x7, .f32⟩ : BufTy).Contents (Elt F) → (⟨S1000x7, .f32⟩ : BufTy).Contents (Elt F) → (⟨S1000x7, .f32⟩ : BufTy).Contents (Elt F)),
    binary main_v103 main_arg7 main_v104 ((fun l r => Host.dotGeneral dot_S1000x7_S7x10_S1000x10_1_0_0_1_n_n none l r) : (⟨S1000x7, .f32⟩ : BufTy).Contents (Elt F) → (⟨S7x10, .f32⟩ : BufTy).Contents (Elt F) → (⟨S1000x10, .f32⟩ : BufTy).Contents (Elt F)),
    unary main_arg8 main_v105 (broadcastInDim S1x10 ![1] bcast_S10_S1x10_1 : (⟨S10, .f32⟩ : BufTy).Contents (Elt F) → (⟨S1x10, .f32⟩ : BufTy).Contents (Elt F)),
    unary main_v105 main_v106 (broadcastInDim S1000x10 ![0, 1] bcast_S1x10_S1000x10_0_1 : (⟨S1x10, .f32⟩ : BufTy).Contents (Elt F) → (⟨S1000x10, .f32⟩ : BufTy).Contents (Elt F)),
    binary main_v104 main_v106 main_v107 (addf : (⟨S1000x10, .f32⟩ : BufTy).Contents (Elt F) → (⟨S1000x10, .f32⟩ : BufTy).Contents (Elt F) → (⟨S1000x10, .f32⟩ : BufTy).Contents (Elt F)),
    nullary main_cst_24 (constant S_ .f32 0xFF800000#32),
    binary main_v107 main_cst_24 main_v108 ((fun x v => Host.reduce FloatOps.maximumf x v reducesTo_S1000x10_S1000_d1 h_S_) : (⟨S1000x10, .f32⟩ : BufTy).Contents (Elt F) → (⟨S_, .f32⟩ : BufTy).Contents (Elt F) → (⟨S1000, .f32⟩ : BufTy).Contents (Elt F)),
    nullary main_cst_25 (constant S_ .f32 0xFF800000#32),
    unary main_cst_25 main_v109 (broadcastInDim S1000 ![] bcast_S_S1000 : (⟨S_, .f32⟩ : BufTy).Contents (Elt F) → (⟨S1000, .f32⟩ : BufTy).Contents (Elt F)),
    binary main_v109 main_v108 main_v110 (maximumf : (⟨S1000, .f32⟩ : BufTy).Contents (Elt F) → (⟨S1000, .f32⟩ : BufTy).Contents (Elt F) → (⟨S1000, .f32⟩ : BufTy).Contents (Elt F)),
    unary main_v110 main_v111 (broadcastInDim S1000x1 ![0] bcast_S1000_S1000x1_0 : (⟨S1000, .f32⟩ : BufTy).Contents (Elt F) → (⟨S1000x1, .f32⟩ : BufTy).Contents (Elt F)),
    unary main_v111 main_v112 (broadcastInDim S1000x10 ![0, 1] bcast_S1000x1_S1000x10_0_1 : (⟨S1000x1, .f32⟩ : BufTy).Contents (Elt F) → (⟨S1000x10, .f32⟩ : BufTy).Contents (Elt F)),
    binary main_v107 main_v112 main_v113 (subf : (⟨S1000x10, .f32⟩ : BufTy).Contents (Elt F) → (⟨S1000x10, .f32⟩ : BufTy).Contents (Elt F) → (⟨S1000x10, .f32⟩ : BufTy).Contents (Elt F)),
    unary main_v113 main_v114 (Host.exp : (⟨S1000x10, .f32⟩ : BufTy).Contents (Elt F) → (⟨S1000x10, .f32⟩ : BufTy).Contents (Elt F)),
    nullary main_cst_26 (constant S_ .f32 0x00000000#32),
    binary main_v114 main_cst_26 main_v115 ((fun x v => Host.reduceAdd x v reducesTo_S1000x10_S1000_d1 h_S_) : (⟨S1000x10, .f32⟩ : BufTy).Contents (Elt F) → (⟨S_, .f32⟩ : BufTy).Contents (Elt F) → (⟨S1000, .f32⟩ : BufTy).Contents (Elt F)),
    unary main_v115 main_v116 (broadcastInDim S1000x1 ![0] bcast_S1000_S1000x1_0 : (⟨S1000, .f32⟩ : BufTy).Contents (Elt F) → (⟨S1000x1, .f32⟩ : BufTy).Contents (Elt F)),
    unary main_v116 main_v117 (broadcastInDim S1000x10 ![0, 1] bcast_S1000x1_S1000x10_0_1 : (⟨S1000x1, .f32⟩ : BufTy).Contents (Elt F) → (⟨S1000x10, .f32⟩ : BufTy).Contents (Elt F)),
    binary main_v114 main_v117 main_v118 (Host.divf : (⟨S1000x10, .f32⟩ : BufTy).Contents (Elt F) → (⟨S1000x10, .f32⟩ : BufTy).Contents (Elt F) → (⟨S1000x10, .f32⟩ : BufTy).Contents (Elt F)) ]

/-- The whole program. -/
abbrev ops : List (HloOp τ sig (Elt F)) := headOps ++ restOps

set_option maxRecDepth 8192 in
set_option maxHeartbeats 4000000 in
/-- The program is the sequence of these operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation touches TensorCore buffers only. -/
theorem ops_sub : (ops : List (HloOp τ sig (Elt F))).Forall fun op => op.bufs ⊆ tcRefs τ sig := by
  simp only [ops, headOps, restOps, List.cons_append, List.nil_append, List.Forall, nullary_bufs_sub, unary_bufs_sub, binary_bufs_sub, ternary_bufs_sub, reshape_bufs_sub, and_self]

/-- Every weakly fair execution terminates, and each buffer ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- Running a concatenation is running the second list from where the first one ends. -/
theorem after_append : ∀ (a b : List (HloOp τ sig (Elt F))) (V : Valuation τ sig (Elt F)), after (a ++ b) V = after b (after a V)
  | [], _, _ => rfl
  | op :: a, b, V => by rw [List.cons_append, after_cons, after_cons, after_append a b]

/-- No operation's result buffer is the argument array `r`. -/
local macro "no_writer" : tactic => `(tactic| (
  simp only [ops, headOps, restOps, List.cons_append, List.nil_append, List.Forall, nullary_writes, unary_writes, binary_writes, ternary_writes, quaternary_writes, reshape_writes,
    binaryIndexed_writes, Finset.mem_singleton]
  repeat' apply And.intro
  all_goals exact devRef_ne_of_ne (by decide)))

set_option maxRecDepth 8192 in
theorem leaves_arg0 : (ops (F := F)).Forall fun op => Proc.devRef .tc main_arg0 ∉ op.writes := by no_writer
set_option maxRecDepth 8192 in
theorem leaves_arg1 : (ops (F := F)).Forall fun op => Proc.devRef .tc main_arg1 ∉ op.writes := by no_writer
set_option maxRecDepth 8192 in
theorem leaves_arg2 : (ops (F := F)).Forall fun op => Proc.devRef .tc main_arg2 ∉ op.writes := by no_writer
set_option maxRecDepth 8192 in
theorem leaves_arg3 : (ops (F := F)).Forall fun op => Proc.devRef .tc main_arg3 ∉ op.writes := by no_writer
set_option maxRecDepth 8192 in
theorem leaves_arg4 : (ops (F := F)).Forall fun op => Proc.devRef .tc main_arg4 ∉ op.writes := by no_writer
set_option maxRecDepth 8192 in
theorem leaves_arg5 : (ops (F := F)).Forall fun op => Proc.devRef .tc main_arg5 ∉ op.writes := by no_writer
set_option maxRecDepth 8192 in
theorem leaves_arg6 : (ops (F := F)).Forall fun op => Proc.devRef .tc main_arg6 ∉ op.writes := by no_writer
set_option maxRecDepth 8192 in
theorem leaves_arg7 : (ops (F := F)).Forall fun op => Proc.devRef .tc main_arg7 ∉ op.writes := by no_writer
set_option maxRecDepth 8192 in
theorem leaves_arg8 : (ops (F := F)).Forall fun op => Proc.devRef .tc main_arg8 ∉ op.writes := by no_writer

variable (m : (ℓ : Loc nD τ sig) → Buf (Elt F) ℓ)

/-- So each argument array ends as launched. -/
theorem args_kept (r : PUnit × MemSt nD τ sig (Elt F))
    (h : ∀ (c : Dev nD) (b : Ref sig .tc), r.2.mem ((c.tc : Thread nD τ).loc b) = after ops (launchContents m c) (Proc.devRef .tc b)) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c main_arg0).trans (after_of_forall_not_mem _ _ (List.forall_iff_forall_mem.mp leaves_arg0)),
   (h c main_arg1).trans (after_of_forall_not_mem _ _ (List.forall_iff_forall_mem.mp leaves_arg1)),
   (h c main_arg2).trans (after_of_forall_not_mem _ _ (List.forall_iff_forall_mem.mp leaves_arg2)),
   (h c main_arg3).trans (after_of_forall_not_mem _ _ (List.forall_iff_forall_mem.mp leaves_arg3)),
   (h c main_arg4).trans (after_of_forall_not_mem _ _ (List.forall_iff_forall_mem.mp leaves_arg4)),
   (h c main_arg5).trans (after_of_forall_not_mem _ _ (List.forall_iff_forall_mem.mp leaves_arg5)),
   (h c main_arg6).trans (after_of_forall_not_mem _ _ (List.forall_iff_forall_mem.mp leaves_arg6)),
   (h c main_arg7).trans (after_of_forall_not_mem _ _ (List.forall_iff_forall_mem.mp leaves_arg7)),
   (h c main_arg8).trans (after_of_forall_not_mem _ _ (List.forall_iff_forall_mem.mp leaves_arg8))⟩

/-- The program terminates, faults nowhere, and leaves its nine argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r h c) (run_all m ρ)

end Cert.ReferenceIdeal.HandRun

end
-- ==== Proof.ProjSpec.lean ====
/-
  The node-feature projection as one function of its two operands: entry (n, j) of the result is the sum over the
  512 feature coordinates k of x(n, k) · w(k, j), on the extended reals.  Both programs compute this array — one by
  20 row-block products, the other by a single whole-matrix product — and everything downstream reads only it.
-/
import Idealize.ShloMosaic.PureOps.Ideal
import Idealize.ShloMosaic.Lib.ValueIdx

noncomputable section

namespace Cert.GcnProj

open Idealize.ShloMosaic Idealize.ShloMosaic.ValueIdx

/-- `proj x w (n, j) = ∑ₖ x(n, k) · w(k, j)`. -/
def proj (x : (⟨2, ![100000, 512]⟩ : Shape).Idx → EReal) (w : (⟨2, ![512, 7]⟩ : Shape).Idx → EReal) :
    (⟨2, ![100000, 7]⟩ : Shape).Idx → EReal :=
  fun i => ∑ k : Fin 512, x (ix2 (i 0) k) * w (ix2 k (i 1))

theorem proj_apply (x : (⟨2, ![100000, 512]⟩ : Shape).Idx → EReal) (w : (⟨2, ![512, 7]⟩ : Shape).Idx → EReal)
    (n : Fin 100000) (j : Fin 7) : proj x w (ix2 n j) = ∑ k : Fin 512, x (ix2 n k) * w (ix2 k j) := rfl

end Cert.GcnProj

end
-- ==== Proof.ProjKernel.lean ====
/-
  What the tiled kernel leaves in the array `h`, on the extended reals.  At grid point `t` the body's product block
  at local row `r` and column `j` is `∑ₖ xb(r, k) · wb(k, j)` (the conversion to the narrow float format is the
  identity on the extended reals, and the accumulator starts at zero).  The row block `xb` is rows
  `5000 t + r` of `x`, the weight block is all of `W_in`, and the output block is rows `5000 t + r` of `h`; so what
  point `t` writes back is block `t` of the one array `proj x W_in`.  The 20 blocks tile the 100000 rows (row `n` lies
  in block `n / 5000`), hence after the region `h = proj x W_in`.
-/
import proofs.«143454_j77352361001079_1_alg».proof.Proof.AroundIdeal
import proofs.«143454_j77352361001079_1_alg».proof.Proof.ProjSpec
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen Cert.KernelIdeal.Around Cert.GcnProj
open Idealize.ShloMosaic Idealize.ShloMosaic.TcCoe Idealize.ShloMosaic.ValueIdx
open Idealize.SL Idealize.SL.Sem
open Idealize.ShloMosaic.Pipeline (Dat Cfg Window)

/-! ## The block product at an entry -/

theorem lhs_row (i : S5000x7.Idx) (κ : dot_S5000x512_S512x7_S5000x7_1_0_0_1_n_n.contr.Idx) : (dot_S5000x512_S512x7_S5000x7_1_0_0_1_n_n.lhsIdx i κ 0).val = (i 0).val := by
  unfold DotDims.lhsIdx
  rw [dif_neg (show ¬(0 : Fin S5000x512.rank) ∈ dot_S5000x512_S512x7_S5000x7_1_0_0_1_n_n.lhsBatch by decide), dif_pos (show (0 : Fin S5000x512.rank) ∈ dot_S5000x512_S512x7_S5000x7_1_0_0_1_n_n.lhsNonContracting by decide)]
  rfl
theorem lhs_col (i : S5000x7.Idx) (κ : dot_S5000x512_S512x7_S5000x7_1_0_0_1_n_n.contr.Idx) : (dot_S5000x512_S512x7_S5000x7_1_0_0_1_n_n.lhsIdx i κ 1).val = (κ ⟨0, by decide⟩).val :=
  dot_S5000x512_S512x7_S5000x7_1_0_0_1_n_n.lhsIdx_val_of_single rfl i κ
theorem rhs_row (i : S5000x7.Idx) (κ : dot_S5000x512_S512x7_S5000x7_1_0_0_1_n_n.contr.Idx) : (dot_S5000x512_S512x7_S5000x7_1_0_0_1_n_n.rhsIdx i κ 0).val = (κ ⟨0, by decide⟩).val :=
  dot_S5000x512_S512x7_S5000x7_1_0_0_1_n_n.rhsIdx_val_of_single rfl i κ
theorem rhs_col (i : S5000x7.Idx) (κ : dot_S5000x512_S512x7_S5000x7_1_0_0_1_n_n.contr.Idx) : (dot_S5000x512_S512x7_S5000x7_1_0_0_1_n_n.rhsIdx i κ 1).val = (i 1).val := by
  unfold DotDims.rhsIdx
  rw [dif_neg (show ¬(1 : Fin S512x7.rank) ∈ dot_S5000x512_S512x7_S5000x7_1_0_0_1_n_n.rhsBatch by decide), dif_pos (show (1 : Fin S512x7.rank) ∈ dot_S5000x512_S512x7_S5000x7_1_0_0_1_n_n.rhsNonContracting by decide)]
  rfl

/-- Entry (r, j) of the body's product block is the sum over the feature coordinate of the products of the loaded
    entries. -/
theorem block_product_apply (xb : Vec Ideal S5000x512 .f32) (wb : Vec Ideal S512x7 .f32) (r : Fin 5000) (j : Fin 7) :
    k0_pay1 (F := Ideal) xb wb (ix2 r j) = ∑ k : Fin 512, xb (ix2 r k) * wb (ix2 k j) := by
  unfold k0_pay1
  simp only [matmul]
  rw [Ideal.matmul_constant_zero_apply, ← Equiv.sum_comp (contrEquiv1 dot_S5000x512_S512x7_S5000x7_1_0_0_1_n_n 512 rfl rfl).symm]
  refine Finset.sum_congr rfl fun k _ => ?_
  have hk := contrEquiv1_symm_val dot_S5000x512_S512x7_S5000x7_1_0_0_1_n_n 512 rfl rfl k
  have el : dot_S5000x512_S512x7_S5000x7_1_0_0_1_n_n.lhsIdx (ix2 r j) ((contrEquiv1 dot_S5000x512_S512x7_S5000x7_1_0_0_1_n_n 512 rfl rfl).symm k) = ix2 r k := funext fun a => Fin.ext (by
    match a with
    | ⟨0, _⟩ => exact lhs_row _ _
    | ⟨1, _⟩ => exact (lhs_col _ _).trans hk)
  have er : dot_S5000x512_S512x7_S5000x7_1_0_0_1_n_n.rhsIdx (ix2 r j) ((contrEquiv1 dot_S5000x512_S512x7_S5000x7_1_0_0_1_n_n 512 rfl rfl).symm k) = ix2 k j := funext fun a => Fin.ext (by
    match a with
    | ⟨0, _⟩ => exact (rhs_row _ _).trans hk
    | ⟨1, _⟩ => exact rhs_col _ _)
  rw [el, er]
  rfl

/-- If the row block is `x` read along `e0`, the weight block `w` read along `e1`, and the two embeddings send local
    (r, k) and (k, j) to the rows and columns that the output embedding `e2` gives local (r, j), then the product block
    is `proj x w` read along `e2`. -/
theorem block_is_proj (x : S100000x512.Idx → EReal) (w : S512x7.Idx → EReal)
    (e0 : S5000x512.Idx → S100000x512.Idx) (e1 : S512x7.Idx → S512x7.Idx) (e2 : S5000x7.Idx → S100000x7.Idx)
    (h0 : ∀ (r : Fin 5000) (k : Fin 512) (j : Fin 7), e0 (ix2 r k) = ix2 (e2 (ix2 r j) 0) k)
    (h1 : ∀ (r : Fin 5000) (k : Fin 512) (j : Fin 7), e1 (ix2 k j) = ix2 k (e2 (ix2 r j) 1))
    (y : S5000x7.Idx) :
    k0_pay1 (F := Ideal) (fun a => x (e0 a)) (fun a => w (e1 a)) y = proj x w (e2 y) := by
  obtain ⟨r, j, rfl⟩ : ∃ (r : Fin 5000) (j : Fin 7), y = ix2 r j := ⟨y 0, y 1, eq_ix2 y⟩
  rw [block_product_apply]
  unfold proj
  refine Finset.sum_congr rfl fun k _ => ?_
  exact congrArg₂ (· * ·) (congrArg x (h0 r k j)) (congrArg w (h1 r k j))

/-! ## From blocks to the array -/

variable (m : (ℓ : Loc nD τ sig) → Buf (Elt Ideal) ℓ) (ρ : Dev nD → PrngReg)

theorem zeros : (![0, 0] : Fin 2 → Nat) = fun _ => 0 := funext fun a => by fin_cases a <;> rfl

/-- The block indices over the grid: the row block of `x` and of `h` is the point's number, every other block index is
    zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `proj x W_in`. -/
theorem flushed_h (c : Dev nD) (t : Fin cfg0.N) :
    (dats m 0 c).flushed 2 t = ((cfg0.win 2).blk t).view.read (Elt Ideal) (proj (V m c main_arg0) (V m c main_arg3)) := by
  show (cfg0.win 2).cut (grid0.coords t) ((dats m 0 c).after 2 t) = _
  rw [after_h]
  unfold blockProduct
  rw [View.canon_unit_zero zeros]
  simp only [View.ld_unit_zero (S := S5000x512) zeros, View.ld_unit_zero (S := S512x7) zeros]
  obtain ⟨a0, a1, b0, b1, c0, c1⟩ := block_indices t
  funext y
  refine block_is_proj (V m c main_arg0) (V m c main_arg3) (((cfg0.win 0).blk t).view.emb) (((cfg0.win 1).blk t).view.emb)
    (((cfg0.win 2).blk t).view.emb) ?_ ?_ y
  · intro r k j
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 512 + 1 * k.val = k.val; omega
  · intro r k j
    funext a; apply Fin.ext
    match a with
    | ⟨0, _⟩ => show win0_1.index t (0 : Fin 2) * 512 + 1 * k.val = k.val; omega
    | ⟨1, _⟩ => show win0_1.index t (1 : Fin 2) * 7 + 1 * j.val = win0_2.index t (1 : Fin 2) * 7 + 1 * j.val; omega

/-- Row `n`, column `j` of `h` lies in point `t`'s block iff each coordinate is in the block's range. -/
theorem mem_block (t : Fin cfg0.N) (i : S100000x7.Idx) :
    i ∈ ((cfg0.win 2).blk t).view.set ↔ ∀ a : Fin 2, win0_2.index t a * S5000x7.size a ≤ (i a).val ∧ (i a).val < win0_2.index t a * S5000x7.size a + S5000x7.size a := by
  show i ∈ ((View.whole main_v4).slice (win0_2.rect t)).set ↔ _
  rw [View.set_slice_whole, Rect.mem_set_unit]
  exact Iff.rfl

/-- Every entry of `h` is in some point's block: row `n` in block `n / 5000`. -/
theorem covered (i : S100000x7.Idx) : ∃ t : Fin cfg0.N, (cfg0.win 2).flush t = true ∧ i ∈ ((cfg0.win 2).blk t).view.set := by
  have hi0 : (i 0).val < 100000 := (i 0).isLt
  have hi1 : (i 1).val < 7 := (i 1).isLt
  have hN : cfg0.N = 20 := N_0
  refine ⟨⟨(i 0).val / 5000, by rw [hN]; omega⟩, flush0_2 _, ?_⟩
  rw [mem_block]
  obtain ⟨a0, a1, b0, b1, c0, c1⟩ := block_indices ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [c0]; show (i 0).val / 5000 * 5000 ≤ (i 0).val ∧ (i 0).val < (i 0).val / 5000 * 5000 + 5000; omega
  | ⟨1, _⟩ =>
    show win0_2.index _ (1 : Fin 2) * 7 ≤ (i 1).val ∧ (i 1).val < win0_2.index _ (1 : Fin 2) * 7 + 7
    rw [c1]; omega

/-- After the region the array `h` is `proj x W_in` of the argument arrays as launched. -/
theorem final_h (c : Dev nD) : (dats m 0 c).arrAt 2 cfg0.N
    = proj (m ((c : Thread nD τ).loc main_arg0)) (m ((c : Thread nD τ).loc main_arg3)) := by
  rw [(dats m 0 c).arrAt_eq_of_cover 2 (proj (V m c main_arg0) (V m c main_arg3)) (fun t _ => flushed_h m c t) covered,
    V_arg0, V_arg3]

end Cert.KernelIdeal.Proj

end
-- ==== Proof.Meet.lean ====
/-
  The two programs meet at five arrays.  After its first five operations the reference holds the flattened source
  and destination rows of the edge list and the projection `x · W_in` computed as one whole-matrix product; when the
  kernel program's region ends, its buffers hold the same two flattened rows (computed by the same slices before
  the region) and the array `h` that the 20 grid points wrote.  On the extended reals the whole-matrix product is
  `proj x W_in` entry by entry, and so is `h`; the argument arrays agree by hypothesis.  This module proves these
  agreements, buffer by buffer; everything after them is the same operations applied to the same values.
-/
import proofs.«143454_j77352361001079_1_alg».proof.Proof.ProjKernel
import proofs.«143454_j77352361001079_1_alg».proof.Proof.RefRun
import Idealize.ShloMosaic.PureOps.Ideal.Laws
import Idealize.ShloMosaic.Lib.ValueIdx

set_option maxRecDepth 16384

noncomputable section

namespace Cert.Meet

open Idealize.ShloMosaic Idealize.ShloMosaic.TcCoe Idealize.ShloMosaic.ValueIdx Idealize.ShloMosaic.StableHlo
open Idealize.SL Idealize.SL.Sem Cert.GcnProj

/-! ## The whole-matrix product is `proj` -/

theorem lhs_row (i : Cert.ReferenceIdeal.S100000x7.Idx) (κ : Cert.ReferenceIdeal.dot_S100000x512_S512x7_S100000x7_1_0_0_1_n_n.contr.Idx) : (Cert.ReferenceIdeal.dot_S100000x512_S512x7_S100000x7_1_0_0_1_n_n.lhsIdx i κ 0).val = (i 0).val := by
  unfold DotDims.lhsIdx
  rw [dif_neg (show ¬(0 : Fin Cert.ReferenceIdeal.S100000x512.rank) ∈ Cert.ReferenceIdeal.dot_S100000x512_S512x7_S100000x7_1_0_0_1_n_n.lhsBatch by decide), dif_pos (show (0 : Fin Cert.ReferenceIdeal.S100000x512.rank) ∈ Cert.ReferenceIdeal.dot_S100000x512_S512x7_S100000x7_1_0_0_1_n_n.lhsNonContracting by decide)]
  rfl
theorem lhs_col (i : Cert.ReferenceIdeal.S100000x7.Idx) (κ : Cert.ReferenceIdeal.dot_S100000x512_S512x7_S100000x7_1_0_0_1_n_n.contr.Idx) : (Cert.ReferenceIdeal.dot_S100000x512_S512x7_S100000x7_1_0_0_1_n_n.lhsIdx i κ 1).val = (κ ⟨0, by decide⟩).val :=
  Cert.ReferenceIdeal.dot_S100000x512_S512x7_S100000x7_1_0_0_1_n_n.lhsIdx_val_of_single rfl i κ
theorem rhs_row (i : Cert.ReferenceIdeal.S100000x7.Idx) (κ : Cert.ReferenceIdeal.dot_S100000x512_S512x7_S100000x7_1_0_0_1_n_n.contr.Idx) : (Cert.ReferenceIdeal.dot_S100000x512_S512x7_S100000x7_1_0_0_1_n_n.rhsIdx i κ 0).val = (κ ⟨0, by decide⟩).val :=
  Cert.ReferenceIdeal.dot_S100000x512_S512x7_S100000x7_1_0_0_1_n_n.rhsIdx_val_of_single rfl i κ
theorem rhs_col (i : Cert.ReferenceIdeal.S100000x7.Idx) (κ : Cert.ReferenceIdeal.dot_S100000x512_S512x7_S100000x7_1_0_0_1_n_n.contr.Idx) : (Cert.ReferenceIdeal.dot_S100000x512_S512x7_S100000x7_1_0_0_1_n_n.rhsIdx i κ 1).val = (i 1).val := by
  unfold DotDims.rhsIdx
  rw [dif_neg (show ¬(1 : Fin Cert.ReferenceIdeal.S512x7.rank) ∈ Cert.ReferenceIdeal.dot_S100000x512_S512x7_S100000x7_1_0_0_1_n_n.rhsBatch by decide), dif_pos (show (1 : Fin Cert.ReferenceIdeal.S512x7.rank) ∈ Cert.ReferenceIdeal.dot_S100000x512_S512x7_S100000x7_1_0_0_1_n_n.rhsNonContracting by decide)]
  rfl

/-- On the extended reals the one whole-matrix product of the reference is `proj`. -/
theorem whole_product_is_proj (x : FVec Ideal Cert.ReferenceIdeal.S100000x512 .f32) (w : FVec Ideal Cert.ReferenceIdeal.S512x7 .f32) :
    Host.dotGeneral (F := Ideal) Cert.ReferenceIdeal.dot_S100000x512_S512x7_S100000x7_1_0_0_1_n_n none x w = proj x w := by
  funext i
  obtain ⟨n, j, rfl⟩ : ∃ (n : Fin 100000) (j : Fin 7), i = ix2 n j := ⟨i 0, i 1, eq_ix2 i⟩
  simp only [Host.dotGeneral]
  rw [Ideal.dotGeneral_apply, ← Equiv.sum_comp (contrEquiv1 Cert.ReferenceIdeal.dot_S100000x512_S512x7_S100000x7_1_0_0_1_n_n 512 rfl rfl).symm, proj_apply]
  refine Finset.sum_congr rfl fun k _ => ?_
  have hk := contrEquiv1_symm_val Cert.ReferenceIdeal.dot_S100000x512_S512x7_S100000x7_1_0_0_1_n_n 512 rfl rfl k
  have el : Cert.ReferenceIdeal.dot_S100000x512_S512x7_S100000x7_1_0_0_1_n_n.lhsIdx (ix2 n j) ((contrEquiv1 Cert.ReferenceIdeal.dot_S100000x512_S512x7_S100000x7_1_0_0_1_n_n 512 rfl rfl).symm k) = ix2 n k := funext fun a => Fin.ext (by
    match a with
    | ⟨0, _⟩ => exact lhs_row _ _
    | ⟨1, _⟩ => exact (lhs_col _ _).trans hk)
  have er : Cert.ReferenceIdeal.dot_S100000x512_S512x7_S100000x7_1_0_0_1_n_n.rhsIdx (ix2 n j) ((contrEquiv1 Cert.ReferenceIdeal.dot_S100000x512_S512x7_S100000x7_1_0_0_1_n_n 512 rfl rfl).symm k) = ix2 k j := funext fun a => Fin.ext (by
    match a with
    | ⟨0, _⟩ => exact (rhs_row _ _).trans hk
    | ⟨1, _⟩ => exact rhs_col _ _)
  rw [el, er]

/-! ## The buffers where the two programs meet -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel program's buffers when its region ends. -/
abbrev atExit : Valuation Cert.KernelIdeal.τ Cert.KernelIdeal.sig (Elt Ideal) :=
  Pipeline.withArrays Cert.KernelIdeal.spec0 c (Cert.KernelIdeal.Around.V0 m c) fun w => (Cert.KernelIdeal.Around.dats m 0 c).arrAt w Cert.KernelIdeal.cfg0.N

/-- The reference's buffers after its first five operations. -/
abbrev afterHead : Valuation Cert.ReferenceIdeal.τ Cert.ReferenceIdeal.sig (Elt Ideal) :=
  after Cert.ReferenceIdeal.HandRun.headOps (fun b => m' (c, b))

variable (ha0 : m' (c, Proc.devRef .tc Cert.ReferenceIdeal.main_arg0) = m (c, Proc.devRef .tc Cert.KernelIdeal.main_arg0))
  (ha1 : m' (c, Proc.devRef .tc Cert.ReferenceIdeal.main_arg1) = m (c, Proc.devRef .tc Cert.KernelIdeal.main_arg1))
  (ha3 : m' (c, Proc.devRef .tc Cert.ReferenceIdeal.main_arg3) = m (c, Proc.devRef .tc Cert.KernelIdeal.main_arg3))

include ha0 ha3 in
/-- The projected features: `h` on one side, the whole-matrix product on the other, both `proj x W_in`. -/
theorem meet_h : atExit m c (Proc.devRef .tc Cert.KernelIdeal.main_v4) = afterHead m' c (Proc.devRef .tc Cert.ReferenceIdeal.main_v4) := by
  have e1 : atExit m c (Proc.devRef .tc Cert.KernelIdeal.main_v4) = proj (m (c, Proc.devRef .tc Cert.KernelIdeal.main_arg0)) (m (c, Proc.devRef .tc Cert.KernelIdeal.main_arg3)) :=
    (Pipeline.withArrays_arr Cert.KernelIdeal.spec0 Cert.KernelIdeal.Gen.launch0.win.arr_inj c _ _ 2).trans (Cert.KernelIdeal.Proj.final_h m c)
  have e2 : afterHead m' c (Proc.devRef .tc Cert.ReferenceIdeal.main_v4)
      = Host.dotGeneral (F := Ideal) (φ₁ := .f32) (φ₂ := .f32) Cert.ReferenceIdeal.dot_S100000x512_S512x7_S100000x7_1_0_0_1_n_n none (m' (c, Proc.devRef .tc Cert.ReferenceIdeal.main_arg0)) (m' (c, Proc.devRef .tc Cert.ReferenceIdeal.main_arg3)) := by
    unfold afterHead; after_results
  rw [e1, e2, whole_product_is_proj, ha0, ha3]

include ha1 in
/-- The flattened source row of the edge list. -/
theorem meet_src : atExit m c (Proc.devRef .tc Cert.KernelIdeal.main_v1) = afterHead m' c (Proc.devRef .tc Cert.ReferenceIdeal.main_v1) := by
  have e1 : atExit m c (Proc.devRef .tc Cert.KernelIdeal.main_v1) = Cert.KernelIdeal.Around.V0 m c (Proc.devRef .tc Cert.KernelIdeal.main_v1) :=
    Pipeline.withArrays_of_ne _ c _ _ Cert.KernelIdeal.main_v1 (by decide)
  rw [e1]
  show after Cert.KernelIdeal.Gen.hostOps0 (fun b => m (c, b)) (Proc.devRef .tc Cert.KernelIdeal.main_v1) = after Cert.ReferenceIdeal.HandRun.headOps (fun b => m' (c, b)) (Proc.devRef .tc Cert.ReferenceIdeal.main_v1)
  after_results
  beta_reduce
  rw [ha1]
  rfl

include ha1 in
/-- The flattened destination row of the edge list. -/
theorem meet_dst : atExit m c (Proc.devRef .tc Cert.KernelIdeal.main_v3) = afterHead m' c (Proc.devRef .tc Cert.ReferenceIdeal.main_v3) := by
  have e1 : atExit m c (Proc.devRef .tc Cert.KernelIdeal.main_v3) = Cert.KernelIdeal.Around.V0 m c (Proc.devRef .tc Cert.KernelIdeal.main_v3) :=
    Pipeline.withArrays_of_ne _ c _ _ Cert.KernelIdeal.main_v3 (by decide)
  rw [e1]
  show after Cert.KernelIdeal.Gen.hostOps0 (fun b => m (c, b)) (Proc.devRef .tc Cert.KernelIdeal.main_v3) = after Cert.ReferenceIdeal.HandRun.headOps (fun b => m' (c, b)) (Proc.devRef .tc Cert.ReferenceIdeal.main_v3)
  after_results
  beta_reduce
  rw [ha1]
  rfl

/-- An argument array the region does not move is found as launched on both sides. -/
theorem meet_arg2 (ha2 : m' (c, Proc.devRef .tc Cert.ReferenceIdeal.main_arg2) = m (c, Proc.devRef .tc Cert.KernelIdeal.main_arg2)) :
    atExit m c (Proc.devRef .tc Cert.KernelIdeal.main_arg2) = afterHead m' c (Proc.devRef .tc Cert.ReferenceIdeal.main_arg2) := by
  have e1 : atExit m c (Proc.devRef .tc Cert.KernelIdeal.main_arg2) = m (c, Proc.devRef .tc Cert.KernelIdeal.main_arg2) :=
    (Pipeline.withArrays_of_ne _ c _ _ Cert.KernelIdeal.main_arg2 (by decide)).trans (Cert.KernelIdeal.Around.V_arg2 m c)
  have e2 : afterHead m' c (Proc.devRef .tc Cert.ReferenceIdeal.main_arg2) = m' (c, Proc.devRef .tc Cert.ReferenceIdeal.main_arg2) := by
    unfold afterHead; after_results
  rw [e1, e2, ha2]
theorem meet_arg4 (ha4 : m' (c, Proc.devRef .tc Cert.ReferenceIdeal.main_arg4) = m (c, Proc.devRef .tc Cert.KernelIdeal.main_arg4)) :
    atExit m c (Proc.devRef .tc Cert.KernelIdeal.main_arg4) = afterHead m' c (Proc.devRef .tc Cert.ReferenceIdeal.main_arg4) := by
  have e1 : atExit m c (Proc.devRef .tc Cert.KernelIdeal.main_arg4) = m (c, Proc.devRef .tc Cert.KernelIdeal.main_arg4) :=
    (Pipeline.withArrays_of_ne _ c _ _ Cert.KernelIdeal.main_arg4 (by decide)).trans (Cert.KernelIdeal.Around.V_arg4 m c)
  have e2 : afterHead m' c (Proc.devRef .tc Cert.ReferenceIdeal.main_arg4) = m' (c, Proc.devRef .tc Cert.ReferenceIdeal.main_arg4) := by
    unfold afterHead; after_results
  rw [e1, e2, ha4]
theorem meet_arg7 (ha7 : m' (c, Proc.devRef .tc Cert.ReferenceIdeal.main_arg7) = m (c, Proc.devRef .tc Cert.KernelIdeal.main_arg7)) :
    atExit m c (Proc.devRef .tc Cert.KernelIdeal.main_arg7) = afterHead m' c (Proc.devRef .tc Cert.ReferenceIdeal.main_arg7) := by
  have e1 : atExit m c (Proc.devRef .tc Cert.KernelIdeal.main_arg7) = m (c, Proc.devRef .tc Cert.KernelIdeal.main_arg7) :=
    (Pipeline.withArrays_of_ne _ c _ _ Cert.KernelIdeal.main_arg7 (by decide)).trans (Cert.KernelIdeal.Around.V_arg7 m c)
  have e2 : afterHead m' c (Proc.devRef .tc Cert.ReferenceIdeal.main_arg7) = m' (c, Proc.devRef .tc Cert.ReferenceIdeal.main_arg7) := by
    unfold afterHead; after_results
  rw [e1, e2, ha7]
theorem meet_arg8 (ha8 : m' (c, Proc.devRef .tc Cert.ReferenceIdeal.main_arg8) = m (c, Proc.devRef .tc Cert.KernelIdeal.main_arg8)) :
    atExit m c (Proc.devRef .tc Cert.KernelIdeal.main_arg8) = afterHead m' c (Proc.devRef .tc Cert.ReferenceIdeal.main_arg8) := by
  have e1 : atExit m c (Proc.devRef .tc Cert.KernelIdeal.main_arg8) = m (c, Proc.devRef .tc Cert.KernelIdeal.main_arg8) :=
    (Pipeline.withArrays_of_ne _ c _ _ Cert.KernelIdeal.main_arg8 (by decide)).trans (Cert.KernelIdeal.Around.V_arg8 m c)
  have e2 : afterHead m' c (Proc.devRef .tc Cert.ReferenceIdeal.main_arg8) = m' (c, Proc.devRef .tc Cert.ReferenceIdeal.main_arg8) := by
    unfold afterHead; after_results
  rw [e1, e2, ha8]

end

end Cert.Meet

end
-- ==== Proof.SameTail.lean ====
/-
  After the projection the two programs are the same computation.  The kernel program's ninety-two trailing
  operations, and the reference's operations after its whole-matrix product that its result depends on, are line
  for line the same operations — self loops appended to the edge list, in-degrees by scatter-add of ones, inverse
  square roots where the degree is positive, the normalisation gathered at both ends of each edge, the projected
  rows gathered at the sources, scaled, scatter-added at the destinations, bias, rectifier, the per-graph sums and
  counts, the mean, the output layer, and the soft-max (row maximum, exponential, row sum, quotient) — applied to the
  projected features, the two flattened rows of the edge list, and the arrays `batch_index`, `b_in`, `W_out`,
  `b_out`.  (The reference's second convolution feeds nothing that is read.)  So if those seven arrays agree, the
  results agree: both results unfold to one and the same term.
-/
import proofs.«143454_j77352361001079_1_alg».proof.Proof.AroundIdeal
import proofs.«143454_j77352361001079_1_alg».proof.Proof.RefRun

noncomputable section

namespace Cert.SameTail

open Idealize.ShloMosaic Idealize.ShloMosaic.TcCoe Idealize.ShloMosaic.StableHlo
open Idealize.SL Idealize.SL.Sem

variable {F : FTy → Type} [FloatOps F]

set_option maxRecDepth 32768 in
set_option maxHeartbeats 200000000 in
/-- From buffers `W` (the kernel program after its region) and `V` (the reference after its first five operations)
    that agree on the seven arrays the rest reads, the two results are equal. -/
theorem results_agree (W : Valuation Cert.KernelIdeal.τ Cert.KernelIdeal.sig (Elt F)) (V : Valuation Cert.ReferenceIdeal.τ Cert.ReferenceIdeal.sig (Elt F))
    (hh : W (Proc.devRef .tc Cert.KernelIdeal.main_v4) = V (Proc.devRef .tc Cert.ReferenceIdeal.main_v4))
    (hs : W (Proc.devRef .tc Cert.KernelIdeal.main_v1) = V (Proc.devRef .tc Cert.ReferenceIdeal.main_v1))
    (hd : W (Proc.devRef .tc Cert.KernelIdeal.main_v3) = V (Proc.devRef .tc Cert.ReferenceIdeal.main_v3))
    (hb : W (Proc.devRef .tc Cert.KernelIdeal.main_arg2) = V (Proc.devRef .tc Cert.ReferenceIdeal.main_arg2))
    (h4 : W (Proc.devRef .tc Cert.KernelIdeal.main_arg4) = V (Proc.devRef .tc Cert.ReferenceIdeal.main_arg4))
    (h7 : W (Proc.devRef .tc Cert.KernelIdeal.main_arg7) = V (Proc.devRef .tc Cert.ReferenceIdeal.main_arg7))
    (h8 : W (Proc.devRef .tc Cert.KernelIdeal.main_arg8) = V (Proc.devRef .tc Cert.ReferenceIdeal.main_arg8)) :
    after (List.flatten Cert.KernelIdeal.Around.tailOps) W (Proc.devRef .tc Cert.KernelIdeal.main_v74)
      = after Cert.ReferenceIdeal.HandRun.restOps V (Proc.devRef .tc Cert.ReferenceIdeal.main_v118) := by
  simp only [Cert.KernelIdeal.Around.tailOps, Cert.KernelIdeal.Gen.hostOps1, Cert.KernelIdeal.Gen.hostOps1_1, Cert.KernelIdeal.Gen.hostOps1_2, Cert.KernelIdeal.Gen.hostOps1_3,
    Cert.KernelIdeal.Gen.hostOps1_4, Cert.ReferenceIdeal.HandRun.restOps, List.flatten_cons, List.flatten_nil, List.append_nil, List.cons_append,
    List.nil_append]
  after_results_simp
  -- the two operands of each concatenation are read back through the operations before it, none of which writes them
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hh, hs, hd, hb, h4, h7, h8]
  rfl

end Cert.SameTail

end
-- ==== Proof.lean ====
/-
  A graph-convolution classifier: node features `x` (100000 × 512) are projected by `W_in` to 7 channels, messages
  are normalised by the inverse square roots of the in-degrees (self loops included), summed at the destinations,
  shifted by `b_in` and rectified; the node vectors are averaged per graph, mapped by the output layer and passed
  through a soft-max.  The kernel program computes the projection by a tiled kernel over 20 row blocks and the
  rest by array operations; the reference computes the projection as one whole-matrix product and the rest by the
  same array operations (plus a second convolution whose result is never read).

  Frames.  Each program terminates on every weakly fair execution, faults nowhere and leaves its nine argument
  arrays as launched: for the two kernel programs because every grid point's body only reads its two input blocks
  and overwrites its output block, and no array operation writes an argument array (the same argument at the
  word-level and the exact instance); for the reference because it is a straight line of array operations, each
  writing a fresh buffer.

  Equality on the extended reals.  Entry (n, j) of the tiled projection is `∑ₖ x(n,k) · W_in(k,j)` — the block
  containing row n contributes exactly that sum, and the blocks tile the rows — and so is the entry of the
  whole-matrix product.  The operations after the projection are the same on both sides and read the same arrays,
  so the results coincide.  No law that needs finiteness is used: the two sides are the same sums and the same
  operations, so the precondition is not opened.  The idealisation rewrote nothing, so its soundness claim is
  trivial.
-/
import proofs.«143454_j77352361001079_1_alg».proof.Defs
import proofs.«143454_j77352361001079_1_alg».proof.Proof.Gen.Kernel
import proofs.«143454_j77352361001079_1_alg».proof.Proof.Gen.KernelIdeal
import proofs.«143454_j77352361001079_1_alg».proof.Proof.Gen.ReferenceIdeal
import proofs.«143454_j77352361001079_1_alg».proof.Proof.Gen.Pre_finite_inputs
import proofs.«143454_j77352361001079_1_alg».proof.Proof.AroundBits
import proofs.«143454_j77352361001079_1_alg».proof.Proof.AroundIdeal
import proofs.«143454_j77352361001079_1_alg».proof.Proof.RefRun
import proofs.«143454_j77352361001079_1_alg».proof.Proof.Meet
import proofs.«143454_j77352361001079_1_alg».proof.Proof.SameTail

noncomputable section

namespace Cert.Proof

open Idealize.ShloMosaic Idealize.ShloMosaic.TcCoe Idealize.ShloMosaic.StableHlo Idealize.SL.Sem

theorem frame_kernel : Cert.frame_Kernel := fun m ρ _ => Cert.Kernel.Around.frame m ρ

theorem frame_kernel_ideal : Cert.frame_KernelIdeal := fun m ρ _ => Cert.KernelIdeal.Around.frame m ρ

theorem frame_reference : Cert.frame_ReferenceIdeal := fun m ρ _ => Cert.ReferenceIdeal.HandRun.frame m ρ

/-- The idealising pass rewrote no operation. -/
theorem preserves : Cert.preserves_Kernel_KernelIdeal := trivial

/-- From memories that agree on the arguments both programs end with the same class probabilities: the kernel
    program's result is what its trailing operations compute from the buffers at the region's exit, the reference's
    what its operations after the projection compute from the buffers after the projection, and those buffers agree
    on every array read. -/
theorem algebraic : Cert.algebraic_KernelIdeal_ReferenceIdeal := by
  intro m ρ m' ρ' _ hagree
  refine ⟨fun c => Pipeline.afterTail₀ Cert.KernelIdeal.cfgs (Cert.KernelIdeal.Around.dats m) 0 (Cert.KernelIdeal.Around.V0 m) Cert.KernelIdeal.Around.tailOps c Cert.KernelIdeal.main_v74, ?_, ?_⟩
  · exact (θ_run Cert.KernelIdeal.defs _ _).mono (fun r h c =>
      ⟨(h c).2 Cert.KernelIdeal.main_v74 (Pipeline.mem_restRefs_of Cert.KernelIdeal.main_v74 (by decide) (by decide)), Cert.KernelIdeal.Around.args_kept m r h c⟩)
      (Cert.KernelIdeal.Around.run_main m ρ)
  · refine (θ_run Cert.ReferenceIdeal.defs _ _).mono (fun r h c => ⟨(h c Cert.ReferenceIdeal.main_v118).trans ?_, Cert.ReferenceIdeal.HandRun.args_kept m' r h c⟩)
      (Cert.ReferenceIdeal.HandRun.run_all m' ρ')
    obtain ⟨a0, a1, a2, a3, a4, a5, a6, a7, a8⟩ := hagree c
    show after (Cert.ReferenceIdeal.HandRun.headOps ++ Cert.ReferenceIdeal.HandRun.restOps) (fun b => m' (c, b)) (Proc.devRef .tc Cert.ReferenceIdeal.main_v118)
      = after (List.flatten Cert.KernelIdeal.Around.tailOps) (Cert.Meet.atExit m c) (Proc.devRef .tc Cert.KernelIdeal.main_v74)
    rw [Cert.ReferenceIdeal.HandRun.after_append]
    exact (Cert.SameTail.results_agree (Cert.Meet.atExit m c) (Cert.Meet.afterHead m' c)
      (Cert.Meet.meet_h m m' c a0 a3) (Cert.Meet.meet_src m m' c a1) (Cert.Meet.meet_dst m m' c a1)
      (Cert.Meet.meet_arg2 m m' c a2) (Cert.Meet.meet_arg4 m m' c a4) (Cert.Meet.meet_arg7 m m' c a7)
      (Cert.Meet.meet_arg8 m m' c a8)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
